-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x128 : Shape := ⟨2, ![16384, 128]⟩
abbrev S4096x128 : Shape := ⟨2, ![4096, 128]⟩
abbrev S8x128 : Shape := ⟨2, ![8, 128]⟩
abbrev S4096x16384 : Shape := ⟨2, ![4096, 16384]⟩
abbrev S_ : Shape := ⟨0, ![]⟩

class Facts : Prop where
  bcast_S_S16384x128 : S_.BroadcastsInDim S16384x128 (![] : Fin 0 → Fin S16384x128.rank)
  reducesTo_S16384x128_S_d0_1 : S16384x128.ReducesTo [0, 1] S_
  h_S_ : 0 < S_.numel
  bcast_S_S4096x128 : S_.BroadcastsInDim S4096x128 (![] : Fin 0 → Fin S4096x128.rank)
  reducesTo_S4096x128_S_d0_1 : S4096x128.ReducesTo [0, 1] S_
  bcast_S_S8x128 : S_.BroadcastsInDim S8x128 (![] : Fin 0 → Fin S8x128.rank)
  reducesTo_S8x128_S_d0_1 : S8x128.ReducesTo [0, 1] S_
  bcast_S_S4096x16384 : S_.BroadcastsInDim S4096x16384 (![] : Fin 0 → Fin S4096x16384.rank)
  reducesTo_S4096x16384_S_d0_1 : S4096x16384.ReducesTo [0, 1] S_

variable [Facts]

def fn_part1 {F : FTy → Type} [FloatOps F] (main_arg4 : FVec F S4096x16384 .f32) (main_v13 : IVec S_ 1) (main_v16 : IVec S8x128 1) : IVec S_ 1 :=
  let main_c_5 : IVec S_ 1 := constantI S_ 1 1#1
  let main_v17 : IVec S_ 1 := (fun x v => Host.reduce IntOp.andi x v reducesTo_S8x128_S_d0_1 h_S_) main_v16 main_c_5
  let main_v18 : IVec S_ 1 := andi main_v13 main_v17
  let main_v19 : FVec F S4096x16384 .f32 := Host.absf main_arg4
  let main_cst_6 : FVec F S_ .f32 := constant S_ .f32 0x7F800000#32
  let main_v20 : FVec F S4096x16384 .f32 := broadcastInDim S4096x16384 ![] bcast_S_S4096x16384 main_cst_6
  let main_v21 : IVec S4096x16384 1 := cmpf .olt main_v19 main_v20
  let main_c_7 : IVec S_ 1 := constantI S_ 1 1#1
  let main_v22 : IVec S_ 1 := (fun x v => Host.reduce IntOp.andi x v reducesTo_S4096x16384_S_d0_1 h_S_) main_v21 main_c_7
  let main_v23 : IVec S_ 1 := andi main_v18 main_v22
  main_v23

def fn {F : FTy → Type} [FloatOps F] (main_arg0 : FVec F S16384x128 .f32) (main_arg1 : FVec F S4096x128 .f32) (main_arg2 : FVec F S8x128 .f32) (main_arg3 : FVec F S8x128 .f32) (main_arg4 : FVec F S4096x16384 .f32) : IVec S_ 1 :=
  let main_v0 : FVec F S16384x128 .f32 := Host.absf main_arg0
  let main_cst : FVec F S_ .f32 := constant S_ .f32 0x7F800000#32
  let main_v1 : FVec F S16384x128 .f32 := broadcastInDim S16384x128 ![] bcast_S_S16384x128 main_cst
  let main_v2 : IVec S16384x128 1 := cmpf .olt main_v0 main_v1
  let main_c : IVec S_ 1 := constantI S_ 1 1#1
  let main_v3 : IVec S_ 1 := (fun x v => Host.reduce IntOp.andi x v reducesTo_S16384x128_S_d0_1 h_S_) main_v2 main_c
  let main_v4 : FVec F S4096x128 .f32 := Host.absf main_arg1
  let main_cst_0 : FVec F S_ .f32 := constant S_ .f32 0x7F800000#32
  let main_v5 : FVec F S4096x128 .f32 := broadcastInDim S4096x128 ![] bcast_S_S4096x128 main_cst_0
  let main_v6 : IVec S4096x128 1 := cmpf .olt main_v4 main_v5
  let main_c_1 : IVec S_ 1 := constantI S_ 1 1#1
  let main_v7 : IVec S_ 1 := (fun x v => Host.reduce IntOp.andi x v reducesTo_S4096x128_S_d0_1 h_S_) main_v6 main_c_1
  let main_v8 : IVec S_ 1 := andi main_v3 main_v7
  let main_v9 : FVec F S8x128 .f32 := Host.absf main_arg2
  let main_cst_2 : FVec F S_ .f32 := constant S_ .f32 0x7F800000#32
  let main_v10 : FVec F S8x128 .f32 := broadcastInDim S8x128 ![] bcast_S_S8x128 main_cst_2
  let main_v11 : IVec S8x128 1 := cmpf .olt main_v9 main_v10
  let main_c_3 : IVec S_ 1 := constantI S_ 1 1#1
  let main_v12 : IVec S_ 1 := (fun x v => Host.reduce IntOp.andi x v reducesTo_S8x128_S_d0_1 h_S_) main_v11 main_c_3
  let main_v13 : IVec S_ 1 := andi main_v8 main_v12
  let main_v14 : FVec F S8x128 .f32 := Host.absf main_arg3
  let main_cst_4 : FVec F S_ .f32 := constant S_ .f32 0x7F800000#32
  let main_v15 : FVec F S8x128 .f32 := broadcastInDim S8x128 ![] bcast_S_S8x128 main_cst_4
  let main_v16 : IVec S8x128 1 := cmpf .olt main_v14 main_v15
  fn_part1 (F := F) main_arg4 main_v13 main_v16
-- ==== Kernel.lean ====
abbrev S16384x128 : Shape := ⟨2, ![16384, 128]⟩
abbrev S4096x128 : Shape := ⟨2, ![4096, 128]⟩
abbrev S8x128 : Shape := ⟨2, ![8, 128]⟩
abbrev S4096x16384 : Shape := ⟨2, ![4096, 16384]⟩
abbrev S256x128 : Shape := ⟨2, ![256, 128]⟩
abbrev S256x8192 : Shape := ⟨2, ![256, 8192]⟩
abbrev S8192x128 : Shape := ⟨2, ![8192, 128]⟩
abbrev S128x8 : Shape := ⟨2, ![128, 8]⟩
abbrev S256x8 : Shape := ⟨2, ![256, 8]⟩
abbrev S256 : Shape := ⟨1, ![256]⟩
abbrev S256x1 : Shape := ⟨2, ![256, 1]⟩

abbrev nBuf : Space → Nat
  | .hbm => 6
  | .vmem => 9
  | .smem => 0
  | _ => 0

abbrev bufTy : (tb : Table) → Fin (tcTables nBuf tb) → BufTy
  | .hbm, ⟨0, _⟩ => ⟨S16384x128, .f32⟩
  | .hbm, ⟨1, _⟩ => ⟨S4096x128, .f32⟩
  | .hbm, ⟨2, _⟩ => ⟨S8x128, .f32⟩
  | .hbm, ⟨3, _⟩ => ⟨S8x128, .f32⟩
  | .hbm, ⟨4, _⟩ => ⟨S4096x16384, .f32⟩
  | .hbm, ⟨5, _⟩ => ⟨S4096x128, .f32⟩
  | .local _ .vmem, ⟨0, _⟩ => ⟨S256x128, .f32⟩
  | .local _ .vmem, ⟨1, _⟩ => ⟨S256x128, .f32⟩
  | .local _ .vmem, ⟨2, _⟩ => ⟨S8x128, .f32⟩
  | .local _ .vmem, ⟨3, _⟩ => ⟨S8x128, .f32⟩
  | .local _ .vmem, ⟨4, _⟩ => ⟨S256x8192, .f32⟩
  | .local _ .vmem, ⟨5, _⟩ => ⟨S256x8192, .f32⟩
  | .local _ .vmem, ⟨6, _⟩ => ⟨S16384x128, .f32⟩
  | .local _ .vmem, ⟨7, _⟩ => ⟨S256x128, .f32⟩
  | .local _ .vmem, ⟨8, _⟩ => ⟨S256x128, .f32⟩
  | _, _ => ⟨S16384x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨2, ![16, 2], ![false, false]⟩

def k0_off1 (i : grid0.Coords) : Fin 2 → Nat :=
  let arg1 : BitVec 32 := BitVec.ofNat 32 (i 1).val
  let c8192_i32 : BitVec 32 := 8192#32
  let v0 : BitVec 32 := Scalar.muli arg1 c8192_i32
  let v1 : Index := Scalar.indexCast v0
  let c0 : Index := 0#32
  ![v1.toNat, 0]
def k0_cond1 (i : grid0.Coords) : BitVec 1 :=
  let arg1 : BitVec 32 := BitVec.ofNat 32 (i 1).val
  let c0_i32 : BitVec 32 := 0#32
  let v7 : BitVec 1 := Scalar.cmpi .eq arg1 c0_i32
  let v8 : BitVec 32 := Scalar.extui v7
  let c0_i32_2 : BitVec 32 := 0#32
  let v9 : BitVec 1 := Scalar.cmpi .ne v8 c0_i32_2
  v9

def k0_cond2 (i : grid0.Coords) : BitVec 1 :=
  let arg1 : BitVec 32 := BitVec.ofNat 32 (i 1).val
  let c0_i32_3 : BitVec 32 := 0#32
  let v10 : BitVec 1 := Scalar.cmpi .sgt arg1 c0_i32_3
  let v11 : BitVec 32 := Scalar.extui v10
  let c0_i32_4 : BitVec 32 := 0#32
  let v12 : BitVec 1 := Scalar.cmpi .ne v11 c0_i32_4
  v12

def k0_cond3 (i : grid0.Coords) : BitVec 1 :=
  let arg1 : BitVec 32 := BitVec.ofNat 32 (i 1).val
  let c1_i32 : BitVec 32 := 1#32
  let v13 : BitVec 1 := Scalar.cmpi .eq arg1 c1_i32
  let v14 : BitVec 32 := Scalar.extui v13
  let c0_i32_5 : BitVec 32 := 0#32
  let v15 : BitVec 1 := Scalar.cmpi .ne v14 c0_i32_5
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S8x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S256x8192 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S16384x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

class Facts₀ : Prop where
  h_S8192x128 : 0 < S8192x128.numel
  bitsLt_bf16_f32 : FTy.bits .bf16 < FTy.bits .f32
  inb_S256x8192_S256x8192_0_0 : ∀ a, (![0, 0] : Fin 2 → Nat) a + S256x8192.size a ≤ S256x8192.size a
  h_S256x8192 : 0 < S256x8192.numel
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S8x128_S8x128_0_0 : ∀ a, (![0, 0] : Fin 2 → Nat) a + S8x128.size a ≤ S8x128.size a
  h_S8x128 : 0 < S8x128.numel
  transposes_S8x128_p1_0_S128x8 : S8x128.Transposes [1, 0] S128x8
  reduces_S256x8_S256 : S256x8.Reduces [1] S256
  shapeCasts_S256_S256x1 : S256.ShapeCasts S256x1
  broadcasts_S256x1_S256x8 : S256x1.Broadcasts S256x8
  dot_S256x8192_S8192x128_S256x128_1_0_0_1_n_n_wf : DotDims.WF S256x8192 S8192x128 S256x128 [1] [0] [0] [1] [] []
  dot_S256x128_S128x8_S256x8_1_0_0_1_n_n_wf : DotDims.WF S256x128 S128x8 S256x8 [1] [0] [0] [1] [] []
  dot_S256x8_S8x128_S256x128_1_0_0_1_n_n_wf : DotDims.WF S256x8 S8x128 S256x128 [1] [0] [0] [1] [] []
  hrank0 : 0 < grid0.rank
  k0_off1_inb : ∀ i : grid0.Coords, ∀ a, (k0_off1 i) a + S8192x128.size a ≤ S16384x128.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x128.size a ≤ S4096x128.size a
  hwx0_0 : ∀ i : grid0.Coords, EltTy.bits .f32 = 32 ∨ (Rect.block (s := S4096x128) S256x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8x128.size a ≤ S8x128.size a
  hwx0_1 : ∀ i : grid0.Coords, EltTy.bits .f32 = 32 ∨ (Rect.block (s := S8x128) S8x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S8x128.size a ≤ S8x128.size a
  hwx0_2 : ∀ i : grid0.Coords, EltTy.bits .f32 = 32 ∨ (Rect.block (s := S8x128) S8x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x8192.size a ≤ S4096x16384.size a
  hwx0_3 : ∀ i : grid0.Coords, EltTy.bits .f32 = 32 ∨ (Rect.block (s := S4096x16384) S256x8192.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S16384x128.size a ≤ S16384x128.size a
  hwx0_4 : ∀ i : grid0.Coords, EltTy.bits .f32 = 32 ∨ (Rect.block (s := S16384x128) S16384x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S256x128.size a ≤ S4096x128.size a
  hwx0_5 : ∀ i : grid0.Coords, EltTy.bits .f32 = 32 ∨ (Rect.block (s := S4096x128) S256x128.size (cc0_transform_5 i) (hinb0_5 i)).WholeWords (EltTy.packing .f32)

variable [Facts₀]

def dot_S256x8192_S8192x128_S256x128_1_0_0_1_n_n : DotDims S256x8192 S8192x128 S256x128 where
  lhsContracting := [1]
  rhsContracting := [0]
  lhsNonContracting := [0]
  rhsNonContracting := [1]
  lhsBatch := []
  rhsBatch := []
  wf := dot_S256x8192_S8192x128_S256x128_1_0_0_1_n_n_wf
def dot_S256x128_S128x8_S256x8_1_0_0_1_n_n : DotDims S256x128 S128x8 S256x8 where
  lhsContracting := [1]
  rhsContracting := [0]
  lhsNonContracting := [0]
  rhsNonContracting := [1]
  lhsBatch := []
  rhsBatch := []
  wf := dot_S256x128_S128x8_S256x8_1_0_0_1_n_n_wf
def dot_S256x8_S8x128_S256x128_1_0_0_1_n_n : DotDims S256x8 S8x128 S256x128 where
  lhsContracting := [1]
  rhsContracting := [0]
  lhsNonContracting := [0]
  rhsNonContracting := [1]
  lhsBatch := []
  rhsBatch := []
  wf := dot_S256x8_S8x128_S256x128_1_0_0_1_n_n_wf

abbrev win0_0 : Pipeline.Window sig grid0 :=
  Pipeline.Window.ofSpec (Memref.whole main_arg1) S256x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S8x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S8x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S256x8192.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg0) S16384x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v0) S256x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond1 i == 1#1) && !(k0_cond2 i == 1#1) && !(k0_cond3 i == 1#1) | ⟨_ + 6, h⟩ => absurd h (Nat.not_lt.2 (Nat.le_add_left _ _))

class Facts : Prop extends Facts₀ where

variable [Facts]
-- ==== ReferenceIdeal.lean ====
abbrev S16384x128 : Shape := ⟨2, ![16384, 128]⟩
abbrev S4096x128 : Shape := ⟨2, ![4096, 128]⟩
abbrev S8x128 : Shape := ⟨2, ![8, 128]⟩
abbrev S4096x16384 : Shape := ⟨2, ![4096, 16384]⟩
abbrev S128x8 : Shape := ⟨2, ![128, 8]⟩
abbrev S4096x8 : Shape := ⟨2, ![4096, 8]⟩
abbrev S_ : Shape := ⟨0, ![]⟩
abbrev S4096 : Shape := ⟨1, ![4096]⟩
abbrev S4096x1 : Shape := ⟨2, ![4096, 1]⟩
abbrev S4096x8x1 : Shape := ⟨3, ![4096, 8, 1]⟩
abbrev S4096x8x128 : Shape := ⟨3, ![4096, 8, 128]⟩

abbrev nBuf : Space → Nat
  | .hbm => 30
  | .vmem => 0
  | .smem => 0
  | _ => 0

abbrev bufTy : (tb : Table) → Fin (tcTables nBuf tb) → BufTy
  | .hbm, ⟨0, _⟩ => ⟨S16384x128, .f32⟩
  | .hbm, ⟨1, _⟩ => ⟨S4096x128, .f32⟩
  | .hbm, ⟨2, _⟩ => ⟨S8x128, .f32⟩
  | .hbm, ⟨3, _⟩ => ⟨S8x128, .f32⟩
  | .hbm, ⟨4, _⟩ => ⟨S4096x16384, .f32⟩
  | .hbm, ⟨5, _⟩ => ⟨S128x8, .f32⟩
  | .hbm, ⟨6, _⟩ => ⟨S4096x8, .f32⟩
  | .hbm, ⟨7, _⟩ => ⟨S_, .f32⟩
  | .hbm, ⟨8, _⟩ => ⟨S4096, .f32⟩
  | .hbm, ⟨9, _⟩ => ⟨S_, .f32⟩
  | .hbm, ⟨10, _⟩ => ⟨S4096, .f32⟩
  | .hbm, ⟨11, _⟩ => ⟨S4096, .f32⟩
  | .hbm, ⟨12, _⟩ => ⟨S4096x1, .f32⟩
  | .hbm, ⟨13, _⟩ => ⟨S4096x8, .f32⟩
  | .hbm, ⟨14, _⟩ => ⟨S4096x8, .f32⟩
  | .hbm, ⟨15, _⟩ => ⟨S4096x8, .f32⟩
  | .hbm, ⟨16, _⟩ => ⟨S_, .f32⟩
  | .hbm, ⟨17, _⟩ => ⟨S4096, .f32⟩
  | .hbm, ⟨18, _⟩ => ⟨S4096x1, .f32⟩
  | .hbm, ⟨19, _⟩ => ⟨S4096x8, .f32⟩
  | .hbm, ⟨20, _⟩ => ⟨S4096x8, .f32⟩
  | .hbm, ⟨21, _⟩ => ⟨S4096x8x1, .f32⟩
  | .hbm, ⟨22, _⟩ => ⟨S4096x128, .f32⟩
  | .hbm, ⟨23, _⟩ => ⟨S4096x8x128, .f32⟩
  | .hbm, ⟨24, _⟩ => ⟨S4096x8x128, .f32⟩
  | .hbm, ⟨25, _⟩ => ⟨S4096x8x128, .f32⟩
  | .hbm, ⟨26, _⟩ => ⟨S_, .f32⟩
  | .hbm, ⟨27, _⟩ => ⟨S4096x128, .f32⟩
  | .hbm, ⟨28, _⟩ => ⟨S4096x128, .f32⟩
  | .hbm, ⟨29, _⟩ => ⟨S4096x128, .f32⟩
  | _, _ => ⟨S16384x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_2 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩

abbrev nD : Nat := 1
abbrev τ : Topo := Topo.v7x

variable {F : FTy → Type} [FloatOps F]

class Facts₀ : Prop where
  transposes_S8x128_S128x8_1_0 : S8x128.Transposes [1, 0] S128x8
  reducesTo_S4096x8_S4096_d1 : S4096x8.ReducesTo [1] S4096
  h_S_ : 0 < S_.numel
  bcast_S_S4096 : S_.BroadcastsInDim S4096 (![] : Fin 0 → Fin S4096.rank)
  bcast_S4096_S4096x1_0 : S4096.BroadcastsInDim S4096x1 (![0] : Fin 1 → Fin S4096x1.rank)
  bcast_S4096x1_S4096x8_0_1 : S4096x1.BroadcastsInDim S4096x8 (![0, 1] : Fin 2 → Fin S4096x8.rank)
  bcast_S4096x8_S4096x8x1_0_1 : S4096x8.BroadcastsInDim S4096x8x1 (![0, 1] : Fin 2 → Fin S4096x8x1.rank)
  bcast_S8x128_S4096x8x128_1_2 : S8x128.BroadcastsInDim S4096x8x128 (![1, 2] : Fin 2 → Fin S4096x8x128.rank)
  bcast_S4096x8x1_S4096x8x128_0_1_2 : S4096x8x1.BroadcastsInDim S4096x8x128 (![0, 1, 2] : Fin 3 → Fin S4096x8x128.rank)
  reducesTo_S4096x8x128_S4096x128_d1 : S4096x8x128.ReducesTo [1] S4096x128
  dot_S4096x128_S128x8_S4096x8_1_0_0_1_n_n_wf : DotDims.WF S4096x128 S128x8 S4096x8 [1] [0] [0] [1] [] []
  dot_S4096x16384_S16384x128_S4096x128_1_0_0_1_n_n_wf : DotDims.WF S4096x16384 S16384x128 S4096x128 [1] [0] [0] [1] [] []

variable [Facts₀]

def dot_S4096x128_S128x8_S4096x8_1_0_0_1_n_n : DotDims S4096x128 S128x8 S4096x8 where
  lhsContracting := [1]
  rhsContracting := [0]
  lhsNonContracting := [0]
  rhsNonContracting := [1]
  lhsBatch := []
  rhsBatch := []
  wf := dot_S4096x128_S128x8_S4096x8_1_0_0_1_n_n_wf
def dot_S4096x16384_S16384x128_S4096x128_1_0_0_1_n_n : DotDims S4096x16384 S16384x128 S4096x128 where
  lhsContracting := [1]
  rhsContracting := [0]
  lhsNonContracting := [0]
  rhsNonContracting := [1]
  lhsBatch := []
  rhsBatch := []
  wf := dot_S4096x16384_S16384x128_S4096x128_1_0_0_1_n_n_wf

class Facts : Prop extends Facts₀ where

variable [Facts]
-- ==== Proof.BitsCases.lean ====
/-
  The grid of the aggregation kernel is 16 user blocks by 2 slices of the entity axis, the slice index minor: point
  `t` is user block `t / 2`, slice `t % 2`. The body's three conditionals test the slice index only: the first
  (store the partial product) holds on slice 0, the second (add the partial product to the block) and the third
  (multiply the block by one plus the gate) hold on slice 1. So every point is in one of two cases, and the output
  block is stored into at every point: it is never idle.
  Stated here once, over the grid: the three conditions in closed form, that no window is idle at any coordinate,
  the staging memrefs the body is called with at a point, and the view through which the output block's contents
  are read.
-/
import proofs.«121113_g16647293239300_cont_7to1_181_22_alg».proof.Proof.Gen.Kernel.Frame
import proofs.«121113_g16647293239300_cont_7to1_181_22_alg».proof.Proof.Gen.Kernel.Skeleton
import Idealize.ShloMosaic.Lib.Pipeline.FrameBody
import Idealize.ShloMosaic.Lib.Ring
import Idealize.ShloMosaic.Lib.Tactic

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The three conditions, by the slice index -/

/-- "This is slice 0": the condition under which the body stores the partial product. -/
abbrev onFirst (i : grid0.Coords) : Prop := k0_cond1 i = 1#1
/-- "This is a later slice": the condition under which the body adds the partial product to the block. -/
abbrev onLater (i : grid0.Coords) : Prop := k0_cond2 i = 1#1
/-- "This is the last slice": the condition under which the body multiplies the block by one plus the gate. -/
abbrev onLast (i : grid0.Coords) : Prop := k0_cond3 i = 1#1

theorem onFirst_iff : ∀ t : Fin cfg0.N, onFirst (grid0.coords t) ↔ t.val % 2 = 0 :=
  (by decide +kernel : ∀ t : Fin grid0.N, onFirst (grid0.coords t) ↔ t.val % 2 = 0)
theorem onLater_iff : ∀ t : Fin cfg0.N, onLater (grid0.coords t) ↔ t.val % 2 = 1 :=
  (by decide +kernel : ∀ t : Fin grid0.N, onLater (grid0.coords t) ↔ t.val % 2 = 1)
theorem onLast_iff : ∀ t : Fin cfg0.N, onLast (grid0.coords t) ↔ t.val % 2 = 1 :=
  (by decide +kernel : ∀ t : Fin grid0.N, onLast (grid0.coords t) ↔ t.val % 2 = 1)

/-! ## No window is idle anywhere -/

theorem live_in0 : ∀ t : Fin cfg0.N, cfg0.idle 0 (grid0.coords t) = false := fun _ => rfl
theorem live_in1 : ∀ t : Fin cfg0.N, cfg0.idle 1 (grid0.coords t) = false := fun _ => rfl
theorem live_in2 : ∀ t : Fin cfg0.N, cfg0.idle 2 (grid0.coords t) = false := fun _ => rfl
theorem live_in3 : ∀ t : Fin cfg0.N, cfg0.idle 3 (grid0.coords t) = false := fun _ => rfl
theorem live_in4 : ∀ t : Fin cfg0.N, cfg0.idle 4 (grid0.coords t) = false := fun _ => rfl

/-- The output window is stored into on slice 0 (first condition) and on slice 1 (second condition): at every
    coordinate one of the conditions holds, so the window is idle nowhere. -/
theorem live_out : ∀ i : grid0.Coords, cfg0.idle 5 i = false := by
  intro i
  have h2 : (i 1).val < 2 := (i 1).isLt
  have h : (i 1).val = 0 ∨ (i 1).val = 1 := by omega
  show (!(k0_cond1 i == 1#1) && !(k0_cond2 i == 1#1) && !(k0_cond3 i == 1#1)) = false
  unfold k0_cond1 k0_cond2 k0_cond3
  rcases h with h | h <;> rw [h] <;> decide

/-! ## What the body is called with at a point -/

/-- One staging buffer of the output window, through which its contents are stated (which one does not matter). -/
abbrev outView : View sig .tc .vmem S256x128 .f32 := (Memref.whole cc0_stg5_0 : Memref sig .tc .vmem S256x128 .f32).view

abbrev ms0 (t : Fin cfg0.N) : Memref sig .tc .vmem S256x128 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S8x128 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S8x128 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S256x8192 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S16384x128 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S256x128 .f32 := win0_5.stage (cfg0.slots t 5)
abbrev hs5 (t : Fin cfg0.N) : (ms5 t).IsWhole := hstage0_5 ((cfg0.slots t 5).cast nbuf0_5)

end Cert.Kernel.Body

end
-- ==== Proof.BitsRunFirst.lean ====
/-
  The body on slice 0. On whole staging memrefs, the five inputs at given contents and the output block at
  anything, the body runs and hands every input back as it was and the output block with its stores written: the
  witness is the list of those stores (last first), each a rectangle of the block with the value stored there. On
  slice 0 only the first conditional is taken, so there is one store: the partial product of the interaction block
  with rows [0, 8192) of the entity array, over the whole block.
-/
import proofs.«121113_g16647293239300_cont_7to1_181_22_alg».proof.Proof.BitsCases

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body's run on slice 0, with the pieces it leaves in the output block. -/
noncomputable def runFirst (c : Dev nD) (i : grid0.Coords) (a0 : Memref sig .tc .vmem S256x128 .f32) (h0 : a0.IsWhole) (a1 : Memref sig .tc .vmem S8x128 .f32) (h1 : a1.IsWhole) (a2 : Memref sig .tc .vmem S8x128 .f32) (h2 : a2.IsWhole) (a3 : Memref sig .tc .vmem S256x8192 .f32) (h3 : a3.IsWhole) (a4 : Memref sig .tc .vmem S16384x128 .f32) (h4 : a4.IsWhole) (a5 : Memref sig .tc .vmem S256x128 .f32) (h5 : a5.IsWhole) (hc0 : onFirst i) (hc1 : ¬onLater i) (hc2 : ¬onLast i)
    (x0 : Vec F S256x128 .f32) (x1 : Vec F S8x128 .f32) (x2 : Vec F S8x128 .f32) (x3 : Vec F S256x8192 .f32) (x4 : Vec F S16384x128 .f32) :
    { L : List (View.Piece (Elt F) S256x128 .f32) //
      ∀ (E : Set ℕ) (K : PUnit → sProp 𝕄),
        iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ (∃ d, owns (c : Thread nD τ) a5 fullShare d)
            ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ (∃ f, a5.view.loc (c : Thread nD τ) ↦[a5.view.set]{fullShare} a5.view.writes (Elt F) f L)) -∗ K ⟨⟩))
          ⊢ wp frame (wpE (defs₀ (F := F)) Variants.none c none) E (cc0__agg_kernel i a0 h0 a1 h1 a2 h2 a3 h3 a4 h4 a5 h5) K } := by
  refine ⟨?_, fun E K => ?run⟩
  case run =>
    simp only [cc0__agg_kernel_eq_skeleton]; unfold cc0__agg_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
    obtain rfl := h0.eq_unread hf0; obtain rfl := h1.eq_unread hf1; obtain rfl := h2.eq_unread hf2; obtain rfl := h3.eq_unread hf3; obtain rfl := h4.eq_unread hf4
    sl_exec (disch := first | exact hc0 | exact hc1 | exact hc2)
    sl_step
    iapply Hk
    isplitl [H0]
    · iexists _; isplitr; · ipureintro; exact h0.read_unread _
      iexact H0
    isplitl [H1]
    · iexists _; isplitr; · ipureintro; exact h1.read_unread _
      iexact H1
    isplitl [H2]
    · iexists _; isplitr; · ipureintro; exact h2.read_unread _
      iexact H2
    isplitl [H3]
    · iexists _; isplitr; · ipureintro; exact h3.read_unread _
      iexact H3
    isplitl [H4]
    · iexists _; isplitr; · ipureintro; exact h4.read_unread _
      iexact H4
    iexists _; iexact H5

end Cert.Kernel.Body

end
-- ==== Proof.BitsRunLast.lean ====
/-
  The body on slice 1. The output block is read before it is stored into, so it comes in at given contents `xo`
  (what slice 0 left). The second and third conditionals are taken: the block is first overwritten by `xo` plus the
  partial product over rows [8192, 16384) of the entity array, then read back and overwritten by that sum times one
  plus the gate. The witness is the list of the two stores, last first.
-/
import proofs.«121113_g16647293239300_cont_7to1_181_22_alg».proof.Proof.BitsRunFirst

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body's run on slice 1, with the pieces it leaves in the output block. -/
noncomputable def runLast (c : Dev nD) (i : grid0.Coords) (a0 : Memref sig .tc .vmem S256x128 .f32) (h0 : a0.IsWhole) (a1 : Memref sig .tc .vmem S8x128 .f32) (h1 : a1.IsWhole) (a2 : Memref sig .tc .vmem S8x128 .f32) (h2 : a2.IsWhole) (a3 : Memref sig .tc .vmem S256x8192 .f32) (h3 : a3.IsWhole) (a4 : Memref sig .tc .vmem S16384x128 .f32) (h4 : a4.IsWhole) (a5 : Memref sig .tc .vmem S256x128 .f32) (h5 : a5.IsWhole) (hc0 : ¬onFirst i) (hc1 : onLater i) (hc2 : onLast i)
    (x0 : Vec F S256x128 .f32) (x1 : Vec F S8x128 .f32) (x2 : Vec F S8x128 .f32) (x3 : Vec F S256x8192 .f32) (x4 : Vec F S16384x128 .f32) (xo : Vec F S256x128 .f32) :
    { L : List (View.Piece (Elt F) S256x128 .f32) //
      ∀ (E : Set ℕ) (K : PUnit → sProp 𝕄),
        iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare xo
            ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ (∃ f, a5.view.loc (c : Thread nD τ) ↦[a5.view.set]{fullShare} a5.view.writes (Elt F) f L)) -∗ K ⟨⟩))
          ⊢ wp frame (wpE (defs₀ (F := F)) Variants.none c none) E (cc0__agg_kernel i a0 h0 a1 h1 a2 h2 a3 h3 a4 h4 a5 h5) K } := by
  refine ⟨?_, fun E K => ?run⟩
  case run =>
    simp only [cc0__agg_kernel_eq_skeleton]; unfold cc0__agg_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
    obtain rfl := h0.eq_unread hf0; obtain rfl := h1.eq_unread hf1; obtain rfl := h2.eq_unread hf2; obtain rfl := h3.eq_unread hf3; obtain rfl := h4.eq_unread hf4; obtain rfl := h5.eq_unread hf5
    sl_exec (disch := first | exact hc0 | exact hc1 | exact hc2)
    sl_step
    iapply Hk
    isplitl [H0]
    · iexists _; isplitr; · ipureintro; exact h0.read_unread _
      iexact H0
    isplitl [H1]
    · iexists _; isplitr; · ipureintro; exact h1.read_unread _
      iexact H1
    isplitl [H2]
    · iexists _; isplitr; · ipureintro; exact h2.read_unread _
      iexact H2
    isplitl [H3]
    · iexists _; isplitr; · ipureintro; exact h3.read_unread _
      iexact H3
    isplitl [H4]
    · iexists _; isplitr; · ipureintro; exact h4.read_unread _
      iexact H4
    iexists _; iexact H5

end Cert.Kernel.Body

end
-- ==== Proof.BitsFrame.lean ====
/-
  The frame of the aggregation kernel, and what its output block holds point by point.
  The output window's block index is the user block only, so the block stays in its staging buffer across the two
  slices of a user block and is written back after slice 1. What the buffer holds after point `n` is defined by
  recursion on the point: on slice 0 what the one store of that case leaves; on slice 1 what the two stores of that
  case leave over the contents of the point before. With this as the proof data the body obligation holds at every
  point (each point is in one of the two cases, by the parity of its position), and the library's launch theorem
  gives the run: every input array unchanged, the result array at the write-backs of the proof data.
-/
import proofs.«121113_g16647293239300_cont_7to1_181_22_alg».proof.Proof.BitsRunLast

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves in the output block -/

/-- The store of slice 0 covers the block. -/
theorem coverFirst (c : Dev nD) (i : grid0.Coords) (a0 : Memref sig .tc .vmem S256x128 .f32) (h0 : a0.IsWhole) (a1 : Memref sig .tc .vmem S8x128 .f32) (h1 : a1.IsWhole) (a2 : Memref sig .tc .vmem S8x128 .f32) (h2 : a2.IsWhole) (a3 : Memref sig .tc .vmem S256x8192 .f32) (h3 : a3.IsWhole) (a4 : Memref sig .tc .vmem S16384x128 .f32) (h4 : a4.IsWhole) (a5 : Memref sig .tc .vmem S256x128 .f32) (h5 : a5.IsWhole) (hc0 : onFirst i) (hc1 : ¬onLater i) (hc2 : ¬onLast i)
    (x0 : Vec F S256x128 .f32) (x1 : Vec F S8x128 .f32) (x2 : Vec F S8x128 .f32) (x3 : Vec F S256x8192 .f32) (x4 : Vec F S16384x128 .f32) (y : S256x128.Idx) :
    ∃ pc ∈ (runFirst c i a0 h0 a1 h1 a2 h2 a3 h3 a4 h4 a5 h5 hc0 hc1 hc2 x0 x1 x2 x3 x4).1, y ∈ pc.1.set :=
  View.cover_of_tiledL (runFirst c i a0 h0 a1 h1 a2 h2 a3 h3 a4 h4 a5 h5 hc0 hc1 hc2 x0 x1 x2 x3 x4).1 S256x128.size (by sl_kernel_rfl) y

/-- What slice 0 leaves in the output block: its pieces read back. -/
def leftFirst (c : Dev nD) (i : grid0.Coords) (a0 : Memref sig .tc .vmem S256x128 .f32) (h0 : a0.IsWhole) (a1 : Memref sig .tc .vmem S8x128 .f32) (h1 : a1.IsWhole) (a2 : Memref sig .tc .vmem S8x128 .f32) (h2 : a2.IsWhole) (a3 : Memref sig .tc .vmem S256x8192 .f32) (h3 : a3.IsWhole) (a4 : Memref sig .tc .vmem S16384x128 .f32) (h4 : a4.IsWhole) (a5 : Memref sig .tc .vmem S256x128 .f32) (h5 : a5.IsWhole) (hc0 : onFirst i) (hc1 : ¬onLater i) (hc2 : ¬onLast i)
    (x0 : Vec F S256x128 .f32) (x1 : Vec F S8x128 .f32) (x2 : Vec F S8x128 .f32) (x3 : Vec F S256x8192 .f32) (x4 : Vec F S16384x128 .f32) : Vec F S256x128 .f32 :=
  outView.read (Elt F) (outView.writes (Elt F) outView.junk (runFirst c i a0 h0 a1 h1 a2 h2 a3 h3 a4 h4 a5 h5 hc0 hc1 hc2 x0 x1 x2 x3 x4).1)

/-- The stores of slice 1 cover the block. -/
theorem coverLast (c : Dev nD) (i : grid0.Coords) (a0 : Memref sig .tc .vmem S256x128 .f32) (h0 : a0.IsWhole) (a1 : Memref sig .tc .vmem S8x128 .f32) (h1 : a1.IsWhole) (a2 : Memref sig .tc .vmem S8x128 .f32) (h2 : a2.IsWhole) (a3 : Memref sig .tc .vmem S256x8192 .f32) (h3 : a3.IsWhole) (a4 : Memref sig .tc .vmem S16384x128 .f32) (h4 : a4.IsWhole) (a5 : Memref sig .tc .vmem S256x128 .f32) (h5 : a5.IsWhole) (hc0 : ¬onFirst i) (hc1 : onLater i) (hc2 : onLast i)
    (x0 : Vec F S256x128 .f32) (x1 : Vec F S8x128 .f32) (x2 : Vec F S8x128 .f32) (x3 : Vec F S256x8192 .f32) (x4 : Vec F S16384x128 .f32) (xo : Vec F S256x128 .f32) (y : S256x128.Idx) :
    ∃ pc ∈ (runLast c i a0 h0 a1 h1 a2 h2 a3 h3 a4 h4 a5 h5 hc0 hc1 hc2 x0 x1 x2 x3 x4 xo).1, y ∈ pc.1.set :=
  View.cover_of_tiledL (runLast c i a0 h0 a1 h1 a2 h2 a3 h3 a4 h4 a5 h5 hc0 hc1 hc2 x0 x1 x2 x3 x4 xo).1 S256x128.size (by sl_kernel_rfl) y

/-- What slice 1 leaves in the output block holding `xo`: its pieces read back. -/
def leftLast (c : Dev nD) (i : grid0.Coords) (a0 : Memref sig .tc .vmem S256x128 .f32) (h0 : a0.IsWhole) (a1 : Memref sig .tc .vmem S8x128 .f32) (h1 : a1.IsWhole) (a2 : Memref sig .tc .vmem S8x128 .f32) (h2 : a2.IsWhole) (a3 : Memref sig .tc .vmem S256x8192 .f32) (h3 : a3.IsWhole) (a4 : Memref sig .tc .vmem S16384x128 .f32) (h4 : a4.IsWhole) (a5 : Memref sig .tc .vmem S256x128 .f32) (h5 : a5.IsWhole) (hc0 : ¬onFirst i) (hc1 : onLater i) (hc2 : onLast i)
    (x0 : Vec F S256x128 .f32) (x1 : Vec F S8x128 .f32) (x2 : Vec F S8x128 .f32) (x3 : Vec F S256x8192 .f32) (x4 : Vec F S16384x128 .f32) (xo : Vec F S256x128 .f32) : Vec F S256x128 .f32 :=
  outView.read (Elt F) (outView.writes (Elt F) outView.junk (runLast c i a0 h0 a1 h1 a2 h2 a3 h3 a4 h4 a5 h5 hc0 hc1 hc2 x0 x1 x2 x3 x4 xo).1)

/-! ## The case of a point, by the parity of its position -/

theorem notLater_of_even (t : Fin cfg0.N) (h : t.val % 2 = 0) : ¬onLater (grid0.coords t) :=
  fun h' => by have := (onLater_iff t).mp h'; omega
theorem notLast_of_even (t : Fin cfg0.N) (h : t.val % 2 = 0) : ¬onLast (grid0.coords t) :=
  fun h' => by have := (onLast_iff t).mp h'; omega
theorem notFirst_of_odd (t : Fin cfg0.N) (h : ¬t.val % 2 = 0) : ¬onFirst (grid0.coords t) :=
  fun h' => h ((onFirst_iff t).mp h')
theorem later_of_odd (t : Fin cfg0.N) (h : ¬t.val % 2 = 0) : onLater (grid0.coords t) :=
  (onLater_iff t).mpr (by omega)
theorem last_of_odd (t : Fin cfg0.N) (h : ¬t.val % 2 = 0) : onLast (grid0.coords t) :=
  (onLast_iff t).mpr (by omega)

/-- What a slice-0 point leaves: the case's contents at the point's memrefs and input blocks. -/
def firstAt (c : Dev nD) (t : Fin cfg0.N) (h : t.val % 2 = 0) : Vec F S256x128 .f32 :=
  leftFirst c (grid0.coords t) (ms0 t) (hs0 t) (ms1 t) (hs1 t) (ms2 t) (hs2 t) (ms3 t) (hs3 t) (ms4 t) (hs4 t) (ms5 t) (hs5 t) ((onFirst_iff t).mpr h) (notLater_of_even t h) (notLast_of_even t h)
    (iblk m c 0 t) (iblk m c 1 t) (iblk m c 2 t) (iblk m c 3 t) (iblk m c 4 t)

/-- What a slice-1 point leaves over the contents `xo` it finds. -/
def lastAt (c : Dev nD) (t : Fin cfg0.N) (h : ¬t.val % 2 = 0) (xo : Vec F S256x128 .f32) : Vec F S256x128 .f32 :=
  leftLast c (grid0.coords t) (ms0 t) (hs0 t) (ms1 t) (hs1 t) (ms2 t) (hs2 t) (ms3 t) (hs3 t) (ms4 t) (hs4 t) (ms5 t) (hs5 t) (notFirst_of_odd t h) (later_of_odd t h) (last_of_odd t h)
    (iblk m c 0 t) (iblk m c 1 t) (iblk m c 2 t) (iblk m c 3 t) (iblk m c 4 t) xo

/-- THE ACCUMULATION: what the output block's staging buffer holds after the body at position `n`. -/
def accAt (c : Dev nD) : (n : ℕ) → n < cfg0.N → Vec F S256x128 .f32
  | 0, hn => firstAt m c ⟨0, hn⟩ (Nat.zero_mod _)
  | n + 1, hn =>
    if h : (n + 1) % 2 = 0 then firstAt m c ⟨n + 1, hn⟩ h
    else lastAt m c ⟨n + 1, hn⟩ h (accAt c n (Nat.lt_of_succ_lt hn))

theorem accAt_even (c : Dev nD) (t : Fin cfg0.N) (h : t.val % 2 = 0) : accAt m c t.val t.isLt = firstAt m c t h := by
  obtain ⟨n, hn⟩ := t
  cases n with
  | zero => rfl
  | succ n => exact (dif_pos h).trans rfl

theorem accAt_odd (c : Dev nD) (t : Fin cfg0.N) (h : ¬t.val % 2 = 0) :
    accAt m c t.val t.isLt = lastAt m c t h (accAt m c (t.val - 1) (Nat.lt_of_le_of_lt (Nat.sub_le _ _) t.isLt)) := by
  obtain ⟨n, hn⟩ := t
  cases n with
  | zero => exact absurd (Nat.zero_mod _) h
  | succ n => exact (dif_neg h).trans rfl

/-! ## The proof data -/

/-- The arrays as the region finds them; after the body at a point each input's buffer at its block and the output's
    at `accAt`; the class's invariant; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => accAt m c t.val t.isLt
  Φ _ := Pipeline.ΦA spec0 c
  q _ := fullShare
  owed _ := 0

theorem A_eq (c : Dev nD) (w : Fin cfg0.W) : (dats m 0 c).A w = V m c (Pipeline.arrRef spec0 w) := by
  dsimp only [dats]

theorem after_in0 (c : Dev nD) (t : Fin cfg0.N) : (dats m 0 c).after 0 t = iblk m c 0 t := by dsimp only [dats]
theorem after_in1 (c : Dev nD) (t : Fin cfg0.N) : (dats m 0 c).after 1 t = iblk m c 1 t := by dsimp only [dats]
theorem after_in2 (c : Dev nD) (t : Fin cfg0.N) : (dats m 0 c).after 2 t = iblk m c 2 t := by dsimp only [dats]
theorem after_in3 (c : Dev nD) (t : Fin cfg0.N) : (dats m 0 c).after 3 t = iblk m c 3 t := by dsimp only [dats]
theorem after_in4 (c : Dev nD) (t : Fin cfg0.N) : (dats m 0 c).after 4 t = iblk m c 4 t := by dsimp only [dats]
theorem after_out (c : Dev nD) (t : Fin cfg0.N) : (dats m 0 c).after 5 t = accAt m c t.val t.isLt := by dsimp only [dats]

/-- Each input's current staging buffer holds its block at every point, fetched there or not. -/
theorem before_in0 (c : Dev nD) (t : Fin cfg0.N) (d) : (dats m 0 c).before 0 t d = iblk m c 0 t :=
  before0_0_of m (dats m 0 c) (A_eq m c 0) (after_in0 m c) t d
theorem before_in1 (c : Dev nD) (t : Fin cfg0.N) (d) : (dats m 0 c).before 1 t d = iblk m c 1 t :=
  before0_1_of m (dats m 0 c) (A_eq m c 1) (after_in1 m c) t d
theorem before_in2 (c : Dev nD) (t : Fin cfg0.N) (d) : (dats m 0 c).before 2 t d = iblk m c 2 t :=
  before0_2_of m (dats m 0 c) (A_eq m c 2) (after_in2 m c) t d
theorem before_in3 (c : Dev nD) (t : Fin cfg0.N) (d) : (dats m 0 c).before 3 t d = iblk m c 3 t :=
  before0_3_of m (dats m 0 c) (A_eq m c 3) (after_in3 m c) t d
theorem before_in4 (c : Dev nD) (t : Fin cfg0.N) (d) : (dats m 0 c).before 4 t d = iblk m c 4 t :=
  before0_4_of m (dats m 0 c) (A_eq m c 4) (after_in4 m c) t d

/-- On slice 1 the output block's staging buffer holds what the body left on slice 0 of the same user block: the
    point is not the first, the buffer was not written back in between (write-backs follow slice 1), and the window is
    live and uncut. -/
theorem before_out_odd (c : Dev nD) (t : Fin cfg0.N) (h : ¬t.val % 2 = 0) (d) :
    (dats m 0 c).before 5 t d = accAt m c (t.val - 1) (Nat.lt_of_le_of_lt (Nat.sub_le _ _) t.isLt) := by
  have hN : t.val < 32 := lt_of_lt_of_eq t.isLt (show cfg0.N = 32 from N_0)
  rw [Dat.before_out_kept _ 5 rfl t (by omega) (Bool.eq_false_iff.mpr fun hf => by have := (flush0_5 _).mp hf; dsimp only at this; omega)
    live_out (fun _ _ => rfl)]
  dsimp only [dats]

/-- What the body must leave in each window's buffer, the liveness facts applied. -/
theorem leaves_in0 (c : Dev nD) (t : Fin cfg0.N) : (dats m 0 c).leavesExact 0 t = owns (c : Thread nD τ) (ms0 t) fullShare (iblk m c 0 t) := by
  unfold Dat.leavesExact; rw [live_in0 t, after_in0]
theorem leaves_in1 (c : Dev nD) (t : Fin cfg0.N) : (dats m 0 c).leavesExact 1 t = owns (c : Thread nD τ) (ms1 t) fullShare (iblk m c 1 t) := by
  unfold Dat.leavesExact; rw [live_in1 t, after_in1]
theorem leaves_in2 (c : Dev nD) (t : Fin cfg0.N) : (dats m 0 c).leavesExact 2 t = owns (c : Thread nD τ) (ms2 t) fullShare (iblk m c 2 t) := by
  unfold Dat.leavesExact; rw [live_in2 t, after_in2]
theorem leaves_in3 (c : Dev nD) (t : Fin cfg0.N) : (dats m 0 c).leavesExact 3 t = owns (c : Thread nD τ) (ms3 t) fullShare (iblk m c 3 t) := by
  unfold Dat.leavesExact; rw [live_in3 t, after_in3]
theorem leaves_in4 (c : Dev nD) (t : Fin cfg0.N) : (dats m 0 c).leavesExact 4 t = owns (c : Thread nD τ) (ms4 t) fullShare (iblk m c 4 t) := by
  unfold Dat.leavesExact; rw [live_in4 t, after_in4]
theorem leaves_out (c : Dev nD) (t : Fin cfg0.N) : (dats m 0 c).leavesExact 5 t = owns (c : Thread nD τ) (ms5 t) fullShare (accAt m c t.val t.isLt) := by
  unfold Dat.leavesExact; rw [live_out (grid0.coords t), after_out]

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

set_option maxHeartbeats 800000 in
/-- The body at any point: the inputs' buffers hold their blocks; the parity of the position says which case the
    point is in; on slice 1 the output's buffer holds what slice 0 left; so that case's run applies, and the pieces it
    leaves, covering the block, read back as the proof data's contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_in0, before_in1, before_in2, before_in3, before_in4]
  rw [show (dats m 0 c).Φ t.succ = (dats m 0 c).Φ t.castSucc from rfl,
    show (dats m 0 c).owesAt () t.succ = (dats m 0 c).owesAt () t.castSucc from rfl,
    leaves_in0, leaves_in1, leaves_in2, leaves_in3, leaves_in4, leaves_out]
  by_cases h : t.val % 2 = 0
  · rw [accAt_even m c t h]
    unfold firstAt leftFirst
    iintro ⟨HΦ, Ho, ⟨%d0, H0⟩, ⟨%d1, H1⟩, ⟨%d2, H2⟩, ⟨%d3, H3⟩, ⟨%d4, H4⟩, ⟨%d5, H5⟩⟩
    iapply ((runFirst c (grid0.coords t) _ _ _ _ _ _ _ _ _ _ _ _ ((onFirst_iff t).mpr h) (notLater_of_even t h) (notLast_of_even t h) (iblk m c 0 t) (iblk m c 1 t) (iblk m c 2 t) (iblk m c 3 t) (iblk m c 4 t)).2 Set.univ _)
    isplitl [H0]; · iexact H0
    isplitl [H1]; · iexact H1
    isplitl [H2]; · iexact H2
    isplitl [H3]; · iexact H3
    isplitl [H4]; · iexact H4
    isplitl [H5]; · iexists _; iexact H5
    iintro ⟨H0, H1, H2, H3, H4, ⟨%e5, H5⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    unfold owns; iexists _; isplitr
    swap; · iexact H5
    ipureintro; exact View.read_writes_of_cover _ _ _ _ _ (fun y => coverFirst c _ _ _ _ _ _ _ _ _ _ _ _ _ _ _ _ _ _ _ _ _ y)
  · rw [accAt_odd m c t h]
    simp only [before_out_odd m c t h]
    unfold lastAt leftLast
    iintro ⟨HΦ, Ho, ⟨%d0, H0⟩, ⟨%d1, H1⟩, ⟨%d2, H2⟩, ⟨%d3, H3⟩, ⟨%d4, H4⟩, ⟨%d5, H5⟩⟩
    iapply ((runLast c (grid0.coords t) _ _ _ _ _ _ _ _ _ _ _ _ (notFirst_of_odd t h) (later_of_odd t h) (last_of_odd t h) (iblk m c 0 t) (iblk m c 1 t) (iblk m c 2 t) (iblk m c 3 t) (iblk m c 4 t) _).2 Set.univ _)
    isplitl [H0]; · iexact H0
    isplitl [H1]; · iexact H1
    isplitl [H2]; · iexact H2
    isplitl [H3]; · iexact H3
    isplitl [H4]; · iexact H4
    isplitl [H5]; · iexact H5
    iintro ⟨H0, H1, H2, H3, H4, ⟨%e5, H5⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    unfold owns; iexists _; isplitr
    swap; · iexact H5
    ipureintro; exact View.read_writes_of_cover _ _ _ _ _ (fun y => coverLast c _ _ _ _ _ _ _ _ _ _ _ _ _ _ _ _ _ _ _ _ _ _ y)

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run -/

set_option backward.isDefEq.respectTransparency.types false in
/-- Every weakly fair execution of @main terminates, every array of the pipeline at what the library computes from the
    proof data (an input unchanged, the result at its write-backs), every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

end Cert.Kernel.Body

end
-- ==== Proof.IdealCases.lean ====
/-
  The grid of the aggregation kernel is 16 user blocks by 2 slices of the entity axis, the slice index minor: point
  `t` is user block `t / 2`, slice `t % 2`. The body's three conditionals test the slice index only: the first
  (store the partial product) holds on slice 0, the second (add the partial product to the block) and the third
  (multiply the block by one plus the gate) hold on slice 1. So every point is in one of two cases, and the output
  block is stored into at every point: it is never idle.
  Stated here once, over the grid: the three conditions in closed form, that no window is idle at any coordinate,
  the staging memrefs the body is called with at a point, and the view through which the output block's contents
  are read.
-/
import proofs.«121113_g16647293239300_cont_7to1_181_22_alg».proof.Proof.Gen.KernelIdeal.Frame
import proofs.«121113_g16647293239300_cont_7to1_181_22_alg».proof.Proof.Gen.KernelIdeal.Skeleton
import Idealize.ShloMosaic.Lib.Pipeline.FrameBody
import Idealize.ShloMosaic.Lib.Ring
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The three conditions, by the slice index -/

/-- "This is slice 0": the condition under which the body stores the partial product. -/
abbrev onFirst (i : grid0.Coords) : Prop := k0_cond1 i = 1#1
/-- "This is a later slice": the condition under which the body adds the partial product to the block. -/
abbrev onLater (i : grid0.Coords) : Prop := k0_cond2 i = 1#1
/-- "This is the last slice": the condition under which the body multiplies the block by one plus the gate. -/
abbrev onLast (i : grid0.Coords) : Prop := k0_cond3 i = 1#1

theorem onFirst_iff : ∀ t : Fin cfg0.N, onFirst (grid0.coords t) ↔ t.val % 2 = 0 :=
  (by decide +kernel : ∀ t : Fin grid0.N, onFirst (grid0.coords t) ↔ t.val % 2 = 0)
theorem onLater_iff : ∀ t : Fin cfg0.N, onLater (grid0.coords t) ↔ t.val % 2 = 1 :=
  (by decide +kernel : ∀ t : Fin grid0.N, onLater (grid0.coords t) ↔ t.val % 2 = 1)
theorem onLast_iff : ∀ t : Fin cfg0.N, onLast (grid0.coords t) ↔ t.val % 2 = 1 :=
  (by decide +kernel : ∀ t : Fin grid0.N, onLast (grid0.coords t) ↔ t.val % 2 = 1)

/-! ## No window is idle anywhere -/

theorem live_in0 : ∀ t : Fin cfg0.N, cfg0.idle 0 (grid0.coords t) = false := fun _ => rfl
theorem live_in1 : ∀ t : Fin cfg0.N, cfg0.idle 1 (grid0.coords t) = false := fun _ => rfl
theorem live_in2 : ∀ t : Fin cfg0.N, cfg0.idle 2 (grid0.coords t) = false := fun _ => rfl
theorem live_in3 : ∀ t : Fin cfg0.N, cfg0.idle 3 (grid0.coords t) = false := fun _ => rfl
theorem live_in4 : ∀ t : Fin cfg0.N, cfg0.idle 4 (grid0.coords t) = false := fun _ => rfl

/-- The output window is stored into on slice 0 (first condition) and on slice 1 (second condition): at every
    coordinate one of the conditions holds, so the window is idle nowhere. -/
theorem live_out : ∀ i : grid0.Coords, cfg0.idle 5 i = false := by
  intro i
  have h2 : (i 1).val < 2 := (i 1).isLt
  have h : (i 1).val = 0 ∨ (i 1).val = 1 := by omega
  show (!(k0_cond1 i == 1#1) && !(k0_cond2 i == 1#1) && !(k0_cond3 i == 1#1)) = false
  unfold k0_cond1 k0_cond2 k0_cond3
  rcases h with h | h <;> rw [h] <;> decide

/-! ## What the body is called with at a point -/

/-- One staging buffer of the output window, through which its contents are stated (which one does not matter). -/
abbrev outView : View sig .tc .vmem S256x128 .f32 := (Memref.whole cc0_stg5_0 : Memref sig .tc .vmem S256x128 .f32).view

abbrev ms0 (t : Fin cfg0.N) : Memref sig .tc .vmem S256x128 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S8x128 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S8x128 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S256x8192 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S16384x128 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S256x128 .f32 := win0_5.stage (cfg0.slots t 5)
abbrev hs5 (t : Fin cfg0.N) : (ms5 t).IsWhole := hstage0_5 ((cfg0.slots t 5).cast nbuf0_5)

end Cert.KernelIdeal.Body

end
-- ==== Proof.IdealRunFirst.lean ====
/-
  The body on slice 0. On whole staging memrefs, the five inputs at given contents and the output block at
  anything, the body runs and hands every input back as it was and the output block with its stores written: the
  witness is the list of those stores (last first), each a rectangle of the block with the value stored there. On
  slice 0 only the first conditional is taken, so there is one store: the partial product of the interaction block
  with rows [0, 8192) of the entity array, over the whole block.
-/
import proofs.«121113_g16647293239300_cont_7to1_181_22_alg».proof.Proof.IdealCases

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body's run on slice 0, with the pieces it leaves in the output block. -/
noncomputable def runFirst (c : Dev nD) (i : grid0.Coords) (a0 : Memref sig .tc .vmem S256x128 .f32) (h0 : a0.IsWhole) (a1 : Memref sig .tc .vmem S8x128 .f32) (h1 : a1.IsWhole) (a2 : Memref sig .tc .vmem S8x128 .f32) (h2 : a2.IsWhole) (a3 : Memref sig .tc .vmem S256x8192 .f32) (h3 : a3.IsWhole) (a4 : Memref sig .tc .vmem S16384x128 .f32) (h4 : a4.IsWhole) (a5 : Memref sig .tc .vmem S256x128 .f32) (h5 : a5.IsWhole) (hc0 : onFirst i) (hc1 : ¬onLater i) (hc2 : ¬onLast i)
    (x0 : Vec F S256x128 .f32) (x1 : Vec F S8x128 .f32) (x2 : Vec F S8x128 .f32) (x3 : Vec F S256x8192 .f32) (x4 : Vec F S16384x128 .f32) :
    { L : List (View.Piece (Elt F) S256x128 .f32) //
      ∀ (E : Set ℕ) (K : PUnit → sProp 𝕄),
        iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ (∃ d, owns (c : Thread nD τ) a5 fullShare d)
            ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ (∃ f, a5.view.loc (c : Thread nD τ) ↦[a5.view.set]{fullShare} a5.view.writes (Elt F) f L)) -∗ K ⟨⟩))
          ⊢ wp frame (wpE (defs₀ (F := F)) Variants.none c none) E (cc0__agg_kernel i a0 h0 a1 h1 a2 h2 a3 h3 a4 h4 a5 h5) K } := by
  refine ⟨?_, fun E K => ?run⟩
  case run =>
    simp only [cc0__agg_kernel_eq_skeleton]; unfold cc0__agg_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
    obtain rfl := h0.eq_unread hf0; obtain rfl := h1.eq_unread hf1; obtain rfl := h2.eq_unread hf2; obtain rfl := h3.eq_unread hf3; obtain rfl := h4.eq_unread hf4
    sl_exec (disch := first | exact hc0 | exact hc1 | exact hc2)
    sl_step
    iapply Hk
    isplitl [H0]
    · iexists _; isplitr; · ipureintro; exact h0.read_unread _
      iexact H0
    isplitl [H1]
    · iexists _; isplitr; · ipureintro; exact h1.read_unread _
      iexact H1
    isplitl [H2]
    · iexists _; isplitr; · ipureintro; exact h2.read_unread _
      iexact H2
    isplitl [H3]
    · iexists _; isplitr; · ipureintro; exact h3.read_unread _
      iexact H3
    isplitl [H4]
    · iexists _; isplitr; · ipureintro; exact h4.read_unread _
      iexact H4
    iexists _; iexact H5

end Cert.KernelIdeal.Body

end
-- ==== Proof.IdealRunLast.lean ====
/-
  The body on slice 1. The output block is read before it is stored into, so it comes in at given contents `xo`
  (what slice 0 left). The second and third conditionals are taken: the block is first overwritten by `xo` plus the
  partial product over rows [8192, 16384) of the entity array, then read back and overwritten by that sum times one
  plus the gate. The witness is the list of the two stores, last first.
-/
import proofs.«121113_g16647293239300_cont_7to1_181_22_alg».proof.Proof.IdealRunFirst

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body's run on slice 1, with the pieces it leaves in the output block. -/
noncomputable def runLast (c : Dev nD) (i : grid0.Coords) (a0 : Memref sig .tc .vmem S256x128 .f32) (h0 : a0.IsWhole) (a1 : Memref sig .tc .vmem S8x128 .f32) (h1 : a1.IsWhole) (a2 : Memref sig .tc .vmem S8x128 .f32) (h2 : a2.IsWhole) (a3 : Memref sig .tc .vmem S256x8192 .f32) (h3 : a3.IsWhole) (a4 : Memref sig .tc .vmem S16384x128 .f32) (h4 : a4.IsWhole) (a5 : Memref sig .tc .vmem S256x128 .f32) (h5 : a5.IsWhole) (hc0 : ¬onFirst i) (hc1 : onLater i) (hc2 : onLast i)
    (x0 : Vec F S256x128 .f32) (x1 : Vec F S8x128 .f32) (x2 : Vec F S8x128 .f32) (x3 : Vec F S256x8192 .f32) (x4 : Vec F S16384x128 .f32) (xo : Vec F S256x128 .f32) :
    { L : List (View.Piece (Elt F) S256x128 .f32) //
      ∀ (E : Set ℕ) (K : PUnit → sProp 𝕄),
        iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare xo
            ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ (∃ f, a5.view.loc (c : Thread nD τ) ↦[a5.view.set]{fullShare} a5.view.writes (Elt F) f L)) -∗ K ⟨⟩))
          ⊢ wp frame (wpE (defs₀ (F := F)) Variants.none c none) E (cc0__agg_kernel i a0 h0 a1 h1 a2 h2 a3 h3 a4 h4 a5 h5) K } := by
  refine ⟨?_, fun E K => ?run⟩
  case run =>
    simp only [cc0__agg_kernel_eq_skeleton]; unfold cc0__agg_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
    obtain rfl := h0.eq_unread hf0; obtain rfl := h1.eq_unread hf1; obtain rfl := h2.eq_unread hf2; obtain rfl := h3.eq_unread hf3; obtain rfl := h4.eq_unread hf4; obtain rfl := h5.eq_unread hf5
    sl_exec (disch := first | exact hc0 | exact hc1 | exact hc2)
    sl_step
    iapply Hk
    isplitl [H0]
    · iexists _; isplitr; · ipureintro; exact h0.read_unread _
      iexact H0
    isplitl [H1]
    · iexists _; isplitr; · ipureintro; exact h1.read_unread _
      iexact H1
    isplitl [H2]
    · iexists _; isplitr; · ipureintro; exact h2.read_unread _
      iexact H2
    isplitl [H3]
    · iexists _; isplitr; · ipureintro; exact h3.read_unread _
      iexact H3
    isplitl [H4]
    · iexists _; isplitr; · ipureintro; exact h4.read_unread _
      iexact H4
    iexists _; iexact H5

end Cert.KernelIdeal.Body

end
-- ==== Proof.IdealFrame.lean ====
/-
  The frame of the aggregation kernel, and what its output block holds point by point.
  The output window's block index is the user block only, so the block stays in its staging buffer across the two
  slices of a user block and is written back after slice 1. What the buffer holds after point `n` is defined by
  recursion on the point: on slice 0 what the one store of that case leaves; on slice 1 what the two stores of that
  case leave over the contents of the point before. With this as the proof data the body obligation holds at every
  point (each point is in one of the two cases, by the parity of its position), and the library's launch theorem
  gives the run: every input array unchanged, the result array at the write-backs of the proof data.
-/
import proofs.«121113_g16647293239300_cont_7to1_181_22_alg».proof.Proof.IdealRunLast

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves in the output block -/

/-- The store of slice 0 covers the block. -/
theorem coverFirst (c : Dev nD) (i : grid0.Coords) (a0 : Memref sig .tc .vmem S256x128 .f32) (h0 : a0.IsWhole) (a1 : Memref sig .tc .vmem S8x128 .f32) (h1 : a1.IsWhole) (a2 : Memref sig .tc .vmem S8x128 .f32) (h2 : a2.IsWhole) (a3 : Memref sig .tc .vmem S256x8192 .f32) (h3 : a3.IsWhole) (a4 : Memref sig .tc .vmem S16384x128 .f32) (h4 : a4.IsWhole) (a5 : Memref sig .tc .vmem S256x128 .f32) (h5 : a5.IsWhole) (hc0 : onFirst i) (hc1 : ¬onLater i) (hc2 : ¬onLast i)
    (x0 : Vec F S256x128 .f32) (x1 : Vec F S8x128 .f32) (x2 : Vec F S8x128 .f32) (x3 : Vec F S256x8192 .f32) (x4 : Vec F S16384x128 .f32) (y : S256x128.Idx) :
    ∃ pc ∈ (runFirst c i a0 h0 a1 h1 a2 h2 a3 h3 a4 h4 a5 h5 hc0 hc1 hc2 x0 x1 x2 x3 x4).1, y ∈ pc.1.set :=
  View.cover_of_tiledL (runFirst c i a0 h0 a1 h1 a2 h2 a3 h3 a4 h4 a5 h5 hc0 hc1 hc2 x0 x1 x2 x3 x4).1 S256x128.size (by sl_kernel_rfl) y

/-- What slice 0 leaves in the output block: its pieces read back. -/
def leftFirst (c : Dev nD) (i : grid0.Coords) (a0 : Memref sig .tc .vmem S256x128 .f32) (h0 : a0.IsWhole) (a1 : Memref sig .tc .vmem S8x128 .f32) (h1 : a1.IsWhole) (a2 : Memref sig .tc .vmem S8x128 .f32) (h2 : a2.IsWhole) (a3 : Memref sig .tc .vmem S256x8192 .f32) (h3 : a3.IsWhole) (a4 : Memref sig .tc .vmem S16384x128 .f32) (h4 : a4.IsWhole) (a5 : Memref sig .tc .vmem S256x128 .f32) (h5 : a5.IsWhole) (hc0 : onFirst i) (hc1 : ¬onLater i) (hc2 : ¬onLast i)
    (x0 : Vec F S256x128 .f32) (x1 : Vec F S8x128 .f32) (x2 : Vec F S8x128 .f32) (x3 : Vec F S256x8192 .f32) (x4 : Vec F S16384x128 .f32) : Vec F S256x128 .f32 :=
  outView.read (Elt F) (outView.writes (Elt F) outView.junk (runFirst c i a0 h0 a1 h1 a2 h2 a3 h3 a4 h4 a5 h5 hc0 hc1 hc2 x0 x1 x2 x3 x4).1)

/-- The stores of slice 1 cover the block. -/
theorem coverLast (c : Dev nD) (i : grid0.Coords) (a0 : Memref sig .tc .vmem S256x128 .f32) (h0 : a0.IsWhole) (a1 : Memref sig .tc .vmem S8x128 .f32) (h1 : a1.IsWhole) (a2 : Memref sig .tc .vmem S8x128 .f32) (h2 : a2.IsWhole) (a3 : Memref sig .tc .vmem S256x8192 .f32) (h3 : a3.IsWhole) (a4 : Memref sig .tc .vmem S16384x128 .f32) (h4 : a4.IsWhole) (a5 : Memref sig .tc .vmem S256x128 .f32) (h5 : a5.IsWhole) (hc0 : ¬onFirst i) (hc1 : onLater i) (hc2 : onLast i)
    (x0 : Vec F S256x128 .f32) (x1 : Vec F S8x128 .f32) (x2 : Vec F S8x128 .f32) (x3 : Vec F S256x8192 .f32) (x4 : Vec F S16384x128 .f32) (xo : Vec F S256x128 .f32) (y : S256x128.Idx) :
    ∃ pc ∈ (runLast c i a0 h0 a1 h1 a2 h2 a3 h3 a4 h4 a5 h5 hc0 hc1 hc2 x0 x1 x2 x3 x4 xo).1, y ∈ pc.1.set :=
  View.cover_of_tiledL (runLast c i a0 h0 a1 h1 a2 h2 a3 h3 a4 h4 a5 h5 hc0 hc1 hc2 x0 x1 x2 x3 x4 xo).1 S256x128.size (by sl_kernel_rfl) y

/-- What slice 1 leaves in the output block holding `xo`: its pieces read back. -/
def leftLast (c : Dev nD) (i : grid0.Coords) (a0 : Memref sig .tc .vmem S256x128 .f32) (h0 : a0.IsWhole) (a1 : Memref sig .tc .vmem S8x128 .f32) (h1 : a1.IsWhole) (a2 : Memref sig .tc .vmem S8x128 .f32) (h2 : a2.IsWhole) (a3 : Memref sig .tc .vmem S256x8192 .f32) (h3 : a3.IsWhole) (a4 : Memref sig .tc .vmem S16384x128 .f32) (h4 : a4.IsWhole) (a5 : Memref sig .tc .vmem S256x128 .f32) (h5 : a5.IsWhole) (hc0 : ¬onFirst i) (hc1 : onLater i) (hc2 : onLast i)
    (x0 : Vec F S256x128 .f32) (x1 : Vec F S8x128 .f32) (x2 : Vec F S8x128 .f32) (x3 : Vec F S256x8192 .f32) (x4 : Vec F S16384x128 .f32) (xo : Vec F S256x128 .f32) : Vec F S256x128 .f32 :=
  outView.read (Elt F) (outView.writes (Elt F) outView.junk (runLast c i a0 h0 a1 h1 a2 h2 a3 h3 a4 h4 a5 h5 hc0 hc1 hc2 x0 x1 x2 x3 x4 xo).1)

/-! ## The case of a point, by the parity of its position -/

theorem notLater_of_even (t : Fin cfg0.N) (h : t.val % 2 = 0) : ¬onLater (grid0.coords t) :=
  fun h' => by have := (onLater_iff t).mp h'; omega
theorem notLast_of_even (t : Fin cfg0.N) (h : t.val % 2 = 0) : ¬onLast (grid0.coords t) :=
  fun h' => by have := (onLast_iff t).mp h'; omega
theorem notFirst_of_odd (t : Fin cfg0.N) (h : ¬t.val % 2 = 0) : ¬onFirst (grid0.coords t) :=
  fun h' => h ((onFirst_iff t).mp h')
theorem later_of_odd (t : Fin cfg0.N) (h : ¬t.val % 2 = 0) : onLater (grid0.coords t) :=
  (onLater_iff t).mpr (by omega)
theorem last_of_odd (t : Fin cfg0.N) (h : ¬t.val % 2 = 0) : onLast (grid0.coords t) :=
  (onLast_iff t).mpr (by omega)

/-- What a slice-0 point leaves: the case's contents at the point's memrefs and input blocks. -/
def firstAt (c : Dev nD) (t : Fin cfg0.N) (h : t.val % 2 = 0) : Vec F S256x128 .f32 :=
  leftFirst c (grid0.coords t) (ms0 t) (hs0 t) (ms1 t) (hs1 t) (ms2 t) (hs2 t) (ms3 t) (hs3 t) (ms4 t) (hs4 t) (ms5 t) (hs5 t) ((onFirst_iff t).mpr h) (notLater_of_even t h) (notLast_of_even t h)
    (iblk m c 0 t) (iblk m c 1 t) (iblk m c 2 t) (iblk m c 3 t) (iblk m c 4 t)

/-- What a slice-1 point leaves over the contents `xo` it finds. -/
def lastAt (c : Dev nD) (t : Fin cfg0.N) (h : ¬t.val % 2 = 0) (xo : Vec F S256x128 .f32) : Vec F S256x128 .f32 :=
  leftLast c (grid0.coords t) (ms0 t) (hs0 t) (ms1 t) (hs1 t) (ms2 t) (hs2 t) (ms3 t) (hs3 t) (ms4 t) (hs4 t) (ms5 t) (hs5 t) (notFirst_of_odd t h) (later_of_odd t h) (last_of_odd t h)
    (iblk m c 0 t) (iblk m c 1 t) (iblk m c 2 t) (iblk m c 3 t) (iblk m c 4 t) xo

/-- THE ACCUMULATION: what the output block's staging buffer holds after the body at position `n`. -/
def accAt (c : Dev nD) : (n : ℕ) → n < cfg0.N → Vec F S256x128 .f32
  | 0, hn => firstAt m c ⟨0, hn⟩ (Nat.zero_mod _)
  | n + 1, hn =>
    if h : (n + 1) % 2 = 0 then firstAt m c ⟨n + 1, hn⟩ h
    else lastAt m c ⟨n + 1, hn⟩ h (accAt c n (Nat.lt_of_succ_lt hn))

theorem accAt_even (c : Dev nD) (t : Fin cfg0.N) (h : t.val % 2 = 0) : accAt m c t.val t.isLt = firstAt m c t h := by
  obtain ⟨n, hn⟩ := t
  cases n with
  | zero => rfl
  | succ n => exact (dif_pos h).trans rfl

theorem accAt_odd (c : Dev nD) (t : Fin cfg0.N) (h : ¬t.val % 2 = 0) :
    accAt m c t.val t.isLt = lastAt m c t h (accAt m c (t.val - 1) (Nat.lt_of_le_of_lt (Nat.sub_le _ _) t.isLt)) := by
  obtain ⟨n, hn⟩ := t
  cases n with
  | zero => exact absurd (Nat.zero_mod _) h
  | succ n => exact (dif_neg h).trans rfl

/-! ## The proof data -/

/-- The arrays as the region finds them; after the body at a point each input's buffer at its block and the output's
    at `accAt`; the class's invariant; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => accAt m c t.val t.isLt
  Φ _ := Pipeline.ΦA spec0 c
  q _ := fullShare
  owed _ := 0

theorem A_eq (c : Dev nD) (w : Fin cfg0.W) : (dats m 0 c).A w = V m c (Pipeline.arrRef spec0 w) := by
  dsimp only [dats]

theorem after_in0 (c : Dev nD) (t : Fin cfg0.N) : (dats m 0 c).after 0 t = iblk m c 0 t := by dsimp only [dats]
theorem after_in1 (c : Dev nD) (t : Fin cfg0.N) : (dats m 0 c).after 1 t = iblk m c 1 t := by dsimp only [dats]
theorem after_in2 (c : Dev nD) (t : Fin cfg0.N) : (dats m 0 c).after 2 t = iblk m c 2 t := by dsimp only [dats]
theorem after_in3 (c : Dev nD) (t : Fin cfg0.N) : (dats m 0 c).after 3 t = iblk m c 3 t := by dsimp only [dats]
theorem after_in4 (c : Dev nD) (t : Fin cfg0.N) : (dats m 0 c).after 4 t = iblk m c 4 t := by dsimp only [dats]
theorem after_out (c : Dev nD) (t : Fin cfg0.N) : (dats m 0 c).after 5 t = accAt m c t.val t.isLt := by dsimp only [dats]

/-- Each input's current staging buffer holds its block at every point, fetched there or not. -/
theorem before_in0 (c : Dev nD) (t : Fin cfg0.N) (d) : (dats m 0 c).before 0 t d = iblk m c 0 t :=
  before0_0_of m (dats m 0 c) (A_eq m c 0) (after_in0 m c) t d
theorem before_in1 (c : Dev nD) (t : Fin cfg0.N) (d) : (dats m 0 c).before 1 t d = iblk m c 1 t :=
  before0_1_of m (dats m 0 c) (A_eq m c 1) (after_in1 m c) t d
theorem before_in2 (c : Dev nD) (t : Fin cfg0.N) (d) : (dats m 0 c).before 2 t d = iblk m c 2 t :=
  before0_2_of m (dats m 0 c) (A_eq m c 2) (after_in2 m c) t d
theorem before_in3 (c : Dev nD) (t : Fin cfg0.N) (d) : (dats m 0 c).before 3 t d = iblk m c 3 t :=
  before0_3_of m (dats m 0 c) (A_eq m c 3) (after_in3 m c) t d
theorem before_in4 (c : Dev nD) (t : Fin cfg0.N) (d) : (dats m 0 c).before 4 t d = iblk m c 4 t :=
  before0_4_of m (dats m 0 c) (A_eq m c 4) (after_in4 m c) t d

/-- On slice 1 the output block's staging buffer holds what the body left on slice 0 of the same user block: the
    point is not the first, the buffer was not written back in between (write-backs follow slice 1), and the window is
    live and uncut. -/
theorem before_out_odd (c : Dev nD) (t : Fin cfg0.N) (h : ¬t.val % 2 = 0) (d) :
    (dats m 0 c).before 5 t d = accAt m c (t.val - 1) (Nat.lt_of_le_of_lt (Nat.sub_le _ _) t.isLt) := by
  have hN : t.val < 32 := lt_of_lt_of_eq t.isLt (show cfg0.N = 32 from N_0)
  rw [Dat.before_out_kept _ 5 rfl t (by omega) (Bool.eq_false_iff.mpr fun hf => by have := (flush0_5 _).mp hf; dsimp only at this; omega)
    live_out (fun _ _ => rfl)]
  dsimp only [dats]

/-- What the body must leave in each window's buffer, the liveness facts applied. -/
theorem leaves_in0 (c : Dev nD) (t : Fin cfg0.N) : (dats m 0 c).leavesExact 0 t = owns (c : Thread nD τ) (ms0 t) fullShare (iblk m c 0 t) := by
  unfold Dat.leavesExact; rw [live_in0 t, after_in0]
theorem leaves_in1 (c : Dev nD) (t : Fin cfg0.N) : (dats m 0 c).leavesExact 1 t = owns (c : Thread nD τ) (ms1 t) fullShare (iblk m c 1 t) := by
  unfold Dat.leavesExact; rw [live_in1 t, after_in1]
theorem leaves_in2 (c : Dev nD) (t : Fin cfg0.N) : (dats m 0 c).leavesExact 2 t = owns (c : Thread nD τ) (ms2 t) fullShare (iblk m c 2 t) := by
  unfold Dat.leavesExact; rw [live_in2 t, after_in2]
theorem leaves_in3 (c : Dev nD) (t : Fin cfg0.N) : (dats m 0 c).leavesExact 3 t = owns (c : Thread nD τ) (ms3 t) fullShare (iblk m c 3 t) := by
  unfold Dat.leavesExact; rw [live_in3 t, after_in3]
theorem leaves_in4 (c : Dev nD) (t : Fin cfg0.N) : (dats m 0 c).leavesExact 4 t = owns (c : Thread nD τ) (ms4 t) fullShare (iblk m c 4 t) := by
  unfold Dat.leavesExact; rw [live_in4 t, after_in4]
theorem leaves_out (c : Dev nD) (t : Fin cfg0.N) : (dats m 0 c).leavesExact 5 t = owns (c : Thread nD τ) (ms5 t) fullShare (accAt m c t.val t.isLt) := by
  unfold Dat.leavesExact; rw [live_out (grid0.coords t), after_out]

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

set_option maxHeartbeats 800000 in
/-- The body at any point: the inputs' buffers hold their blocks; the parity of the position says which case the
    point is in; on slice 1 the output's buffer holds what slice 0 left; so that case's run applies, and the pieces it
    leaves, covering the block, read back as the proof data's contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_in0, before_in1, before_in2, before_in3, before_in4]
  rw [show (dats m 0 c).Φ t.succ = (dats m 0 c).Φ t.castSucc from rfl,
    show (dats m 0 c).owesAt () t.succ = (dats m 0 c).owesAt () t.castSucc from rfl,
    leaves_in0, leaves_in1, leaves_in2, leaves_in3, leaves_in4, leaves_out]
  by_cases h : t.val % 2 = 0
  · rw [accAt_even m c t h]
    unfold firstAt leftFirst
    iintro ⟨HΦ, Ho, ⟨%d0, H0⟩, ⟨%d1, H1⟩, ⟨%d2, H2⟩, ⟨%d3, H3⟩, ⟨%d4, H4⟩, ⟨%d5, H5⟩⟩
    iapply ((runFirst c (grid0.coords t) _ _ _ _ _ _ _ _ _ _ _ _ ((onFirst_iff t).mpr h) (notLater_of_even t h) (notLast_of_even t h) (iblk m c 0 t) (iblk m c 1 t) (iblk m c 2 t) (iblk m c 3 t) (iblk m c 4 t)).2 Set.univ _)
    isplitl [H0]; · iexact H0
    isplitl [H1]; · iexact H1
    isplitl [H2]; · iexact H2
    isplitl [H3]; · iexact H3
    isplitl [H4]; · iexact H4
    isplitl [H5]; · iexists _; iexact H5
    iintro ⟨H0, H1, H2, H3, H4, ⟨%e5, H5⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    unfold owns; iexists _; isplitr
    swap; · iexact H5
    ipureintro; exact View.read_writes_of_cover _ _ _ _ _ (fun y => coverFirst c _ _ _ _ _ _ _ _ _ _ _ _ _ _ _ _ _ _ _ _ _ y)
  · rw [accAt_odd m c t h]
    simp only [before_out_odd m c t h]
    unfold lastAt leftLast
    iintro ⟨HΦ, Ho, ⟨%d0, H0⟩, ⟨%d1, H1⟩, ⟨%d2, H2⟩, ⟨%d3, H3⟩, ⟨%d4, H4⟩, ⟨%d5, H5⟩⟩
    iapply ((runLast c (grid0.coords t) _ _ _ _ _ _ _ _ _ _ _ _ (notFirst_of_odd t h) (later_of_odd t h) (last_of_odd t h) (iblk m c 0 t) (iblk m c 1 t) (iblk m c 2 t) (iblk m c 3 t) (iblk m c 4 t) _).2 Set.univ _)
    isplitl [H0]; · iexact H0
    isplitl [H1]; · iexact H1
    isplitl [H2]; · iexact H2
    isplitl [H3]; · iexact H3
    isplitl [H4]; · iexact H4
    isplitl [H5]; · iexact H5
    iintro ⟨H0, H1, H2, H3, H4, ⟨%e5, H5⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    unfold owns; iexists _; isplitr
    swap; · iexact H5
    ipureintro; exact View.read_writes_of_cover _ _ _ _ _ (fun y => coverLast c _ _ _ _ _ _ _ _ _ _ _ _ _ _ _ _ _ _ _ _ _ _ y)

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run -/

set_option backward.isDefEq.respectTransparency.types false in
/-- Every weakly fair execution of @main terminates, every array of the pipeline at what the library computes from the
    proof data (an input unchanged, the result at its write-backs), every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

end Cert.KernelIdeal.Body

end
-- ==== Proof.Spec.lean ====
/-
  The mathematics of the aggregation, over the extended reals, with no program in sight.

  For one user `u` and one channel `c` the result is

      a · (1 + g)      with  a = Σₖ I[u,k] · E[k,c]  (k over the 16384 entities),
                             g = Σ_f p_f · W[f,c]    (f over the 8 factors),
                             p = softmax of the eight scores s_f = Σ_d U[u,d] · L[f,d].

  The softmax is taken the way both programs take it: the largest score `top s` (a fold of `max` from −∞), the
  numerators `exp (s_f − top s)`, and each numerator divided by the sum of the eight.

  One program computes `a` in two halves of the entity axis and multiplies their sum by `1 + g` (`fused`); the other
  computes `a · g' + a` with `g' = Σ_f W[f,c] · p_f` (`plain`). Over the extended reals these agree when `a` is a real
  number — `r · (1 + g) = r · g + r` for every real `r` and EVERY extended real `g`, by cases on `g` and on the sign of
  `r` — and a finite sum of products of reals is a real. (For `a = +∞`, `g = −1/2` they differ: +∞ against −∞.)
  Splitting the sum over the entities in two halves and swapping the factors of a product need no finiteness.
-/
import Idealize.ShloMosaic.PureOps.Ideal
import Idealize.ShloMosaic.PureOps.Ideal.Laws
import Idealize.ShloMosaic.Lib.IdealHost
import Idealize.ShloMosaic.Lib.ValueIdx

noncomputable section

namespace Agg

open Idealize.ShloMosaic

/-- −∞, as the word both programs start their maximum from. -/
abbrev negInf : EReal := Ideal.ofBits .f32 0xFF800000#32
/-- The word 1.0. -/
abbrev one : EReal := Ideal.ofBits .f32 0x3F800000#32

/-- The largest of eight scores: the fold of `max` from −∞ over the eight, and `max` with −∞ once more. -/
def top (s : Fin 8 → EReal) : EReal := max negInf ((Finset.univ : Finset (Fin 8)).fold max negInf s)

/-- The softmax numerator of factor `f`. -/
def num (s : Fin 8 → EReal) (f : Fin 8) : EReal := Ideal.exp (s f - top s)

/-- The softmax weight of factor `f`: its numerator over the sum of the eight. -/
def weight (s : Fin 8 → EReal) (f : Fin 8) : EReal := Ideal.div (num s f) (∑ g : Fin 8, num s g)

/-- The gate: the weights against one column `w` of the factor matrix. -/
def gate (s w : Fin 8 → EReal) : EReal := ∑ f : Fin 8, weight s f * w f

/-- The aggregate in two halves, times one plus the gate. -/
def fused (a₀ a₁ g : EReal) : EReal := (a₀ + a₁) * (one + g)

/-- The aggregate times the gate, plus the aggregate. -/
def plain (a g : EReal) : EReal := a * g + a

/-- The result for user `u` and channel `c`, of the five argument arrays read by coordinates. -/
def result (E : Fin 16384 → Fin 128 → EReal) (U : Fin 4096 → Fin 128 → EReal) (L W : Fin 8 → Fin 128 → EReal)
    (I : Fin 4096 → Fin 16384 → EReal) (u : Fin 4096) (c : Fin 128) : EReal :=
  plain (∑ k : Fin 16384, I u k * E k c) (∑ f : Fin 8, W f c * weight (fun f' => ∑ d : Fin 128, U u d * L f' d) f)

/-- The whole result array, of the five argument arrays: `result` at each index's two coordinates. -/
def resultArr (E : (⟨2, ![16384, 128]⟩ : Shape).Idx → EReal) (U : (⟨2, ![4096, 128]⟩ : Shape).Idx → EReal)
    (L W : (⟨2, ![8, 128]⟩ : Shape).Idx → EReal) (I : (⟨2, ![4096, 16384]⟩ : Shape).Idx → EReal) :
    (⟨2, ![4096, 128]⟩ : Shape).Idx → EReal := fun i =>
  result (fun a b => E (ValueIdx.ix2 a b)) (fun a b => U (ValueIdx.ix2 a b)) (fun a b => L (ValueIdx.ix2 a b))
    (fun a b => W (ValueIdx.ix2 a b)) (fun a b => I (ValueIdx.ix2 a b)) ⟨(i 0).val, (i 0).isLt⟩ ⟨(i 1).val, (i 1).isLt⟩

theorem resultArr_apply (E : (⟨2, ![16384, 128]⟩ : Shape).Idx → EReal) (U : (⟨2, ![4096, 128]⟩ : Shape).Idx → EReal)
    (L W : (⟨2, ![8, 128]⟩ : Shape).Idx → EReal) (I : (⟨2, ![4096, 16384]⟩ : Shape).Idx → EReal) (u : Fin 4096) (c : Fin 128) :
    resultArr E U L W I (ValueIdx.ix2 u c)
      = result (fun a b => E (ValueIdx.ix2 a b)) (fun a b => U (ValueIdx.ix2 a b)) (fun a b => L (ValueIdx.ix2 a b))
          (fun a b => W (ValueIdx.ix2 a b)) (fun a b => I (ValueIdx.ix2 a b)) u c := rfl

/-! ## The law -/

/-- A real number times one plus ANY extended real distributes. -/
theorem coe_mul_one_add (r : ℝ) (g : EReal) : (r : EReal) * (1 + g) = (r : EReal) * g + (r : EReal) := by
  induction g using EReal.rec with
  | bot =>
    rw [EReal.add_bot]
    rcases lt_trichotomy r 0 with h | h | h
    · rw [EReal.coe_mul_bot_of_neg h, EReal.top_add_coe]
    · subst h; simp
    · rw [EReal.coe_mul_bot_of_pos h, EReal.bot_add]
  | coe x =>
    rw [← EReal.coe_one, ← EReal.coe_add, ← EReal.coe_mul, ← EReal.coe_mul, ← EReal.coe_add]
    congr 1; ring
  | top =>
    have h1 : (1 : EReal) + ⊤ = ⊤ := by rw [← EReal.coe_one, EReal.coe_add_top]
    rw [h1]
    rcases lt_trichotomy r 0 with h | h | h
    · rw [EReal.coe_mul_top_of_neg h, EReal.bot_add]
    · subst h; simp
    · rw [EReal.coe_mul_top_of_pos h, EReal.top_add_coe]

/-- A finite sum of reals, taken in the extended reals, is a real. -/
theorem exists_real_sum {ι : Type} (S : Finset ι) (x : ι → EReal) (hx : ∀ k, ∃ r : ℝ, x k = r) : ∃ r : ℝ, ∑ k ∈ S, x k = r := by
  classical
  choose y hy using hx
  refine ⟨∑ k ∈ S, y k, ?_⟩
  rw [show x = fun k => (y k : EReal) from funext hy]
  induction S using Finset.induction_on with
  | empty => simp
  | insert a s ha ih => rw [Finset.sum_insert ha, Finset.sum_insert ha, ih, EReal.coe_add]

/-- A product of reals is a real. -/
theorem exists_real_mul {a b : EReal} (ha : ∃ r : ℝ, a = r) (hb : ∃ r : ℝ, b = r) : ∃ r : ℝ, a * b = r := by
  obtain ⟨r, rfl⟩ := ha; obtain ⟨q, rfl⟩ := hb
  exact ⟨r * q, (EReal.coe_mul r q).symm⟩

/-- THE LAW. With every term of the aggregate a real: the two halves summed and multiplied by one plus the gate are the
    whole sum times the gate (its factors swapped) plus the whole sum. -/
theorem fused_eq_plain (x : Fin (8192 + 8192) → EReal) (hx : ∀ k, ∃ r : ℝ, x k = r) (s w : Fin 8 → EReal) :
    fused (∑ k : Fin 8192, x (Fin.castAdd 8192 k)) (∑ k : Fin 8192, x (Fin.natAdd 8192 k)) (gate s w)
      = plain (∑ k, x k) (∑ f : Fin 8, w f * weight s f) := by
  unfold fused plain gate
  rw [← Fin.sum_univ_add]
  obtain ⟨r, hr⟩ := exists_real_sum Finset.univ x hx
  rw [hr, show one = 1 from Ideal.ofBits_one_f32, coe_mul_one_add]
  rw [show (∑ f : Fin 8, weight s f * w f) = ∑ f : Fin 8, w f * weight s f from
    Finset.sum_congr rfl fun f _ => mul_comm _ _]

/-- The law at the arrays: for user `u` and channel `c`, with the interaction and entity arrays real everywhere, the
    two half-sums over the entities multiplied by one plus the gate are the result. -/
theorem fused_eq_result (E : Fin 16384 → Fin 128 → EReal) (U : Fin 4096 → Fin 128 → EReal) (L W : Fin 8 → Fin 128 → EReal)
    (I : Fin 4096 → Fin 16384 → EReal) (hI : ∀ u k, ∃ r : ℝ, I u k = r) (hE : ∀ k c, ∃ r : ℝ, E k c = r)
    (u : Fin 4096) (c : Fin 128) :
    fused (∑ k : Fin 8192, I u (Fin.castAdd 8192 k) * E (Fin.castAdd 8192 k) c)
        (∑ k : Fin 8192, I u (Fin.natAdd 8192 k) * E (Fin.natAdd 8192 k) c)
        (gate (fun f => ∑ d : Fin 128, U u d * L f d) (fun f => W f c))
      = result E U L W I u c :=
  fused_eq_plain (fun k => I u k * E k c) (fun k => exists_real_mul (hI u k) (hE k c)) _ _

end Agg

end
-- ==== Proof.IdealPay.lean ====
/-
  The body's three stored values, read at row `r` and column `c` of the block, over the extended reals.

  * The partial product: Σₖ I[r,k] · E[k,c] over the 8192 entities of the slice (a change of float format is the
    identity, so the two narrowings to bf16 vanish; the product accumulates into zero).
  * The accumulation: what the block held, plus the partial product.
  * The gated block: what the block held, times one plus the gate. The gate's computation is cut into the stages the
    body goes through — scores (the user rows against the TRANSPOSED factor embedding), the row's largest score kept
    as a column and broadcast back, numerators, their row sums kept as a column and broadcast back, weights, and the
    weights against the factor matrix — each named here and read at an index; the printed value is their composition.
-/
import proofs.«121113_g16647293239300_cont_7to1_181_22_alg».proof.Proof.Spec
import proofs.«121113_g16647293239300_cont_7to1_181_22_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Pay

open Cert.KernelIdeal Cert.KernelIdeal.Gen
open Idealize.ShloMosaic Idealize.ShloMosaic.ValueIdx

/-! ## The three matrix products -/

theorem dotPart_l0 (i : S256x128.Idx) (q : dot_S256x8192_S8192x128_S256x128_1_0_0_1_n_n.contr.Idx) : (dot_S256x8192_S8192x128_S256x128_1_0_0_1_n_n.lhsIdx i q 0).val = (i 0).val := by
  unfold DotDims.lhsIdx
  rw [dif_neg (show ¬(0 : Fin S256x8192.rank) ∈ dot_S256x8192_S8192x128_S256x128_1_0_0_1_n_n.lhsBatch by decide), dif_pos (show (0 : Fin S256x8192.rank) ∈ dot_S256x8192_S8192x128_S256x128_1_0_0_1_n_n.lhsNonContracting by decide)]
  rfl
theorem dotPart_l1 (i : S256x128.Idx) (q : dot_S256x8192_S8192x128_S256x128_1_0_0_1_n_n.contr.Idx) : (dot_S256x8192_S8192x128_S256x128_1_0_0_1_n_n.lhsIdx i q 1).val = (q ⟨0, by decide⟩).val :=
  dot_S256x8192_S8192x128_S256x128_1_0_0_1_n_n.lhsIdx_val_of_single rfl i q
theorem dotPart_r0 (i : S256x128.Idx) (q : dot_S256x8192_S8192x128_S256x128_1_0_0_1_n_n.contr.Idx) : (dot_S256x8192_S8192x128_S256x128_1_0_0_1_n_n.rhsIdx i q 0).val = (q ⟨0, by decide⟩).val :=
  dot_S256x8192_S8192x128_S256x128_1_0_0_1_n_n.rhsIdx_val_of_single rfl i q
theorem dotPart_r1 (i : S256x128.Idx) (q : dot_S256x8192_S8192x128_S256x128_1_0_0_1_n_n.contr.Idx) : (dot_S256x8192_S8192x128_S256x128_1_0_0_1_n_n.rhsIdx i q 1).val = (i 1).val := by
  unfold DotDims.rhsIdx
  rw [dif_neg (show ¬(1 : Fin S8192x128.rank) ∈ dot_S256x8192_S8192x128_S256x128_1_0_0_1_n_n.rhsBatch by decide), dif_pos (show (1 : Fin S8192x128.rank) ∈ dot_S256x8192_S8192x128_S256x128_1_0_0_1_n_n.rhsNonContracting by decide)]
  rfl
/-- A [256, 8192] by [8192, 128] matrix product into the zero accumulator, at row `r` and column `c`: the sum over the
    contracted coordinate of the products. -/
theorem dotPart_apply {φ₁ φ₂ : FTy} (a : FVec Ideal S256x8192 φ₁) (b : FVec Ideal S8192x128 φ₂) (r : Fin 256) (c : Fin 128) :
    FloatOps.matmul dot_S256x8192_S8192x128_S256x128_1_0_0_1_n_n none a b (constant (F := Ideal) S256x128 .f32 0x00000000#32) (ix2 r c)
      = ∑ k : Fin 8192, a (ix2 r k) * b (ix2 k c) := by
  rw [Ideal.matmul_constant_zero_apply, ← Equiv.sum_comp (contrEquiv1 dot_S256x8192_S8192x128_S256x128_1_0_0_1_n_n 8192 rfl rfl).symm]
  refine Finset.sum_congr rfl fun k _ => ?_
  have hk := contrEquiv1_symm_val dot_S256x8192_S8192x128_S256x128_1_0_0_1_n_n 8192 rfl rfl k
  have el : dot_S256x8192_S8192x128_S256x128_1_0_0_1_n_n.lhsIdx (ix2 r c) ((contrEquiv1 dot_S256x8192_S8192x128_S256x128_1_0_0_1_n_n 8192 rfl rfl).symm k) = ix2 r k := funext fun x => Fin.ext (by
    match x with
    | ⟨0, _⟩ => exact dotPart_l0 _ _
    | ⟨1, _⟩ => exact (dotPart_l1 _ _).trans hk)
  have er : dot_S256x8192_S8192x128_S256x128_1_0_0_1_n_n.rhsIdx (ix2 r c) ((contrEquiv1 dot_S256x8192_S8192x128_S256x128_1_0_0_1_n_n 8192 rfl rfl).symm k) = ix2 k c := funext fun x => Fin.ext (by
    match x with
    | ⟨0, _⟩ => exact (dotPart_r0 _ _).trans hk
    | ⟨1, _⟩ => exact dotPart_r1 _ _)
  rw [el, er]

theorem dotScore_l0 (i : S256x8.Idx) (q : dot_S256x128_S128x8_S256x8_1_0_0_1_n_n.contr.Idx) : (dot_S256x128_S128x8_S256x8_1_0_0_1_n_n.lhsIdx i q 0).val = (i 0).val := by
  unfold DotDims.lhsIdx
  rw [dif_neg (show ¬(0 : Fin S256x128.rank) ∈ dot_S256x128_S128x8_S256x8_1_0_0_1_n_n.lhsBatch by decide), dif_pos (show (0 : Fin S256x128.rank) ∈ dot_S256x128_S128x8_S256x8_1_0_0_1_n_n.lhsNonContracting by decide)]
  rfl
theorem dotScore_l1 (i : S256x8.Idx) (q : dot_S256x128_S128x8_S256x8_1_0_0_1_n_n.contr.Idx) : (dot_S256x128_S128x8_S256x8_1_0_0_1_n_n.lhsIdx i q 1).val = (q ⟨0, by decide⟩).val :=
  dot_S256x128_S128x8_S256x8_1_0_0_1_n_n.lhsIdx_val_of_single rfl i q
theorem dotScore_r0 (i : S256x8.Idx) (q : dot_S256x128_S128x8_S256x8_1_0_0_1_n_n.contr.Idx) : (dot_S256x128_S128x8_S256x8_1_0_0_1_n_n.rhsIdx i q 0).val = (q ⟨0, by decide⟩).val :=
  dot_S256x128_S128x8_S256x8_1_0_0_1_n_n.rhsIdx_val_of_single rfl i q
theorem dotScore_r1 (i : S256x8.Idx) (q : dot_S256x128_S128x8_S256x8_1_0_0_1_n_n.contr.Idx) : (dot_S256x128_S128x8_S256x8_1_0_0_1_n_n.rhsIdx i q 1).val = (i 1).val := by
  unfold DotDims.rhsIdx
  rw [dif_neg (show ¬(1 : Fin S128x8.rank) ∈ dot_S256x128_S128x8_S256x8_1_0_0_1_n_n.rhsBatch by decide), dif_pos (show (1 : Fin S128x8.rank) ∈ dot_S256x128_S128x8_S256x8_1_0_0_1_n_n.rhsNonContracting by decide)]
  rfl
/-- A [256, 128] by [128, 8] matrix product into the zero accumulator, at row `r` and column `c`: the sum over the
    contracted coordinate of the products. -/
theorem dotScore_apply {φ₁ φ₂ : FTy} (a : FVec Ideal S256x128 φ₁) (b : FVec Ideal S128x8 φ₂) (r : Fin 256) (c : Fin 8) :
    FloatOps.matmul dot_S256x128_S128x8_S256x8_1_0_0_1_n_n none a b (constant (F := Ideal) S256x8 .f32 0x00000000#32) (ix2 r c)
      = ∑ k : Fin 128, a (ix2 r k) * b (ix2 k c) := by
  rw [Ideal.matmul_constant_zero_apply, ← Equiv.sum_comp (contrEquiv1 dot_S256x128_S128x8_S256x8_1_0_0_1_n_n 128 rfl rfl).symm]
  refine Finset.sum_congr rfl fun k _ => ?_
  have hk := contrEquiv1_symm_val dot_S256x128_S128x8_S256x8_1_0_0_1_n_n 128 rfl rfl k
  have el : dot_S256x128_S128x8_S256x8_1_0_0_1_n_n.lhsIdx (ix2 r c) ((contrEquiv1 dot_S256x128_S128x8_S256x8_1_0_0_1_n_n 128 rfl rfl).symm k) = ix2 r k := funext fun x => Fin.ext (by
    match x with
    | ⟨0, _⟩ => exact dotScore_l0 _ _
    | ⟨1, _⟩ => exact (dotScore_l1 _ _).trans hk)
  have er : dot_S256x128_S128x8_S256x8_1_0_0_1_n_n.rhsIdx (ix2 r c) ((contrEquiv1 dot_S256x128_S128x8_S256x8_1_0_0_1_n_n 128 rfl rfl).symm k) = ix2 k c := funext fun x => Fin.ext (by
    match x with
    | ⟨0, _⟩ => exact (dotScore_r0 _ _).trans hk
    | ⟨1, _⟩ => exact dotScore_r1 _ _)
  rw [el, er]

theorem dotGate_l0 (i : S256x128.Idx) (q : dot_S256x8_S8x128_S256x128_1_0_0_1_n_n.contr.Idx) : (dot_S256x8_S8x128_S256x128_1_0_0_1_n_n.lhsIdx i q 0).val = (i 0).val := by
  unfold DotDims.lhsIdx
  rw [dif_neg (show ¬(0 : Fin S256x8.rank) ∈ dot_S256x8_S8x128_S256x128_1_0_0_1_n_n.lhsBatch by decide), dif_pos (show (0 : Fin S256x8.rank) ∈ dot_S256x8_S8x128_S256x128_1_0_0_1_n_n.lhsNonContracting by decide)]
  rfl
theorem dotGate_l1 (i : S256x128.Idx) (q : dot_S256x8_S8x128_S256x128_1_0_0_1_n_n.contr.Idx) : (dot_S256x8_S8x128_S256x128_1_0_0_1_n_n.lhsIdx i q 1).val = (q ⟨0, by decide⟩).val :=
  dot_S256x8_S8x128_S256x128_1_0_0_1_n_n.lhsIdx_val_of_single rfl i q
theorem dotGate_r0 (i : S256x128.Idx) (q : dot_S256x8_S8x128_S256x128_1_0_0_1_n_n.contr.Idx) : (dot_S256x8_S8x128_S256x128_1_0_0_1_n_n.rhsIdx i q 0).val = (q ⟨0, by decide⟩).val :=
  dot_S256x8_S8x128_S256x128_1_0_0_1_n_n.rhsIdx_val_of_single rfl i q
theorem dotGate_r1 (i : S256x128.Idx) (q : dot_S256x8_S8x128_S256x128_1_0_0_1_n_n.contr.Idx) : (dot_S256x8_S8x128_S256x128_1_0_0_1_n_n.rhsIdx i q 1).val = (i 1).val := by
  unfold DotDims.rhsIdx
  rw [dif_neg (show ¬(1 : Fin S8x128.rank) ∈ dot_S256x8_S8x128_S256x128_1_0_0_1_n_n.rhsBatch by decide), dif_pos (show (1 : Fin S8x128.rank) ∈ dot_S256x8_S8x128_S256x128_1_0_0_1_n_n.rhsNonContracting by decide)]
  rfl
/-- A [256, 8] by [8, 128] matrix product into the zero accumulator, at row `r` and column `c`: the sum over the
    contracted coordinate of the products. -/
theorem dotGate_apply {φ₁ φ₂ : FTy} (a : FVec Ideal S256x8 φ₁) (b : FVec Ideal S8x128 φ₂) (r : Fin 256) (c : Fin 128) :
    FloatOps.matmul dot_S256x8_S8x128_S256x128_1_0_0_1_n_n none a b (constant (F := Ideal) S256x128 .f32 0x00000000#32) (ix2 r c)
      = ∑ k : Fin 8, a (ix2 r k) * b (ix2 k c) := by
  rw [Ideal.matmul_constant_zero_apply, ← Equiv.sum_comp (contrEquiv1 dot_S256x8_S8x128_S256x128_1_0_0_1_n_n 8 rfl rfl).symm]
  refine Finset.sum_congr rfl fun k _ => ?_
  have hk := contrEquiv1_symm_val dot_S256x8_S8x128_S256x128_1_0_0_1_n_n 8 rfl rfl k
  have el : dot_S256x8_S8x128_S256x128_1_0_0_1_n_n.lhsIdx (ix2 r c) ((contrEquiv1 dot_S256x8_S8x128_S256x128_1_0_0_1_n_n 8 rfl rfl).symm k) = ix2 r k := funext fun x => Fin.ext (by
    match x with
    | ⟨0, _⟩ => exact dotGate_l0 _ _
    | ⟨1, _⟩ => exact (dotGate_l1 _ _).trans hk)
  have er : dot_S256x8_S8x128_S256x128_1_0_0_1_n_n.rhsIdx (ix2 r c) ((contrEquiv1 dot_S256x8_S8x128_S256x128_1_0_0_1_n_n 8 rfl rfl).symm k) = ix2 k c := funext fun x => Fin.ext (by
    match x with
    | ⟨0, _⟩ => exact (dotGate_r0 _ _).trans hk
    | ⟨1, _⟩ => exact dotGate_r1 _ _)
  rw [el, er]

/-! ## Rows reduced, kept as a column, broadcast back -/

/-- A row index with the factor coordinate put back is (row, factor). -/
theorem lift_row (h : S256x8.Reduces [1] S256) (r : Fin 256) (f : Fin (S256x8.size 1)) :
    h.lift (ix1 r) f = ix2 r (⟨f.val, f.isLt⟩ : Fin 8) := by
  funext c; apply Fin.ext
  fin_cases c <;> rfl

/-- A sum over the eight factors of a [256, 8] array, at row `r`. -/
theorem rowSum_apply (x : FVec Ideal S256x8 .f32) (h : S256x8.Reduces [1] S256) (hφ : FKind.Formats .f32)
    (hacc : (0x00000000#32 : BitVec 32) = FKind.add.neutral .f32 hφ) (r : Fin 256) :
    multiReduction .add [1] S256 x 0x00000000#32 h hφ hacc (ix1 r) = ∑ f : Fin 8, x (ix2 r f) :=
  (Ideal.multiReduction_add_single x 0x00000000#32 h hφ hacc (ix1 r)).trans
    (Finset.sum_congr rfl fun f _ => congrArg x (lift_row h r f))

/-- The maximum over the eight factors of a [256, 8] array, at row `r`: the fold of `max` from −∞. -/
theorem rowMax_apply (x : FVec Ideal S256x8 .f32) (h : S256x8.Reduces [1] S256) (hφ : FKind.Formats .f32)
    (hacc : (0xFF800000#32 : BitVec 32) = FKind.maximumf.neutral .f32 hφ) (r : Fin 256) :
    multiReduction .maximumf [1] S256 x 0xFF800000#32 h hφ hacc (ix1 r)
      = (Finset.univ : Finset (Fin 8)).fold max Agg.negInf (fun f => x (ix2 r f)) :=
  (Ideal.multiReduction_maximumf_single x 0xFF800000#32 h hφ hacc (ix1 r)).trans
    (congrArg (fun g : Fin 8 → EReal => (Finset.univ : Finset (Fin 8)).fold max Agg.negInf g)
      (funext fun f => congrArg x (lift_row h r f)))

/-- A [256] vector kept as a [256, 1] column and broadcast over eight columns reads, at (r, f), the vector at r. -/
theorem column_apply {α : Type} (v : S256.Idx → α) (h₁ : S256.ShapeCasts S256x1) (h₂ : S256x1.Broadcasts S256x8) (r : Fin 256) (f : Fin 8) :
    broadcastTo S256x8 (shapeCast S256x1 v h₁) h₂ (ix2 r f) = v (ix1 r) := by
  refine (broadcastTo_apply (shapeCast S256x1 v h₁) h₂ (ix2 r f) (ix2 r (0 : Fin 1)) fun ax => ?_).trans ?_
  · match ax with
    | ⟨0, _⟩ => show r.val = if (256 : Nat) = 1 then 0 else r.val; rw [if_neg (by decide)]
    | ⟨1, _⟩ => show (0 : Nat) = if (1 : Nat) = 1 then 0 else f.val; rw [if_pos rfl]
  · exact shapeCast_apply v h₁ (ix2 r (0 : Fin 1)) (ix1 r) (by
      rw [Shape.rowMajor_val_one, Shape.rowMajor_val_two]
      show r.val = r.val * 1 + 0
      omega)

/-! ## The stages of the gate -/

/-- The scores: the user rows against the transposed factor embedding. -/
def scoreVec (U : FVec Ideal S256x128 .f32) (L : FVec Ideal S8x128 .f32) : FVec Ideal S256x8 .f32 :=
  matmul dot_S256x128_S128x8_S256x8_1_0_0_1_n_n none U (transpose S128x8 [1, 0] L transposes_S8x128_p1_0_S128x8)
    (constant (F := Ideal) S256x8 .f32 0x00000000#32)

theorem scoreVec_apply (U : FVec Ideal S256x128 .f32) (L : FVec Ideal S8x128 .f32) (r : Fin 256) (f : Fin 8) :
    scoreVec U L (ix2 r f) = ∑ d : Fin 128, U (ix2 r d) * L (ix2 f d) :=
  (dotScore_apply U _ r f).trans (Finset.sum_congr rfl fun d _ =>
    congrArg (U (ix2 r d) * ·) (transpose_ix2_apply L transposes_S8x128_p1_0_S128x8 d f))

/-- The row's largest score, kept as a column and broadcast back over the eight factors. -/
def topVec (s : FVec Ideal S256x8 .f32) : FVec Ideal S256x8 .f32 :=
  broadcastTo S256x8 (shapeCast S256x1 (maximumf (broadcast S256 (Scalar.ofBits (F := Ideal) .f32 0xFF800000#32))
    (multiReduction .maximumf [1] S256 s 0xFF800000#32 reduces_S256x8_S256 (.inl rfl) rfl)) shapeCasts_S256_S256x1) broadcasts_S256x1_S256x8

theorem topVec_apply (s : FVec Ideal S256x8 .f32) (r : Fin 256) (f : Fin 8) :
    topVec s (ix2 r f) = Agg.top (fun g => s (ix2 r g)) :=
  (column_apply _ shapeCasts_S256_S256x1 broadcasts_S256x1_S256x8 r f).trans
    (congrArg (max Agg.negInf ·) (rowMax_apply s reduces_S256x8_S256 (.inl rfl) rfl r))

/-- The softmax numerators. -/
def numVec (s : FVec Ideal S256x8 .f32) : FVec Ideal S256x8 .f32 := exp (subf s (topVec s))

theorem numVec_apply (s : FVec Ideal S256x8 .f32) (r : Fin 256) (f : Fin 8) :
    numVec s (ix2 r f) = Agg.num (fun g => s (ix2 r g)) f :=
  congrArg (fun t => Ideal.exp (s (ix2 r f) - t)) (topVec_apply s r f)

/-- The row sums of an array of numerators, kept as a column and broadcast back. -/
def sumVec (e : FVec Ideal S256x8 .f32) : FVec Ideal S256x8 .f32 :=
  broadcastTo S256x8 (shapeCast S256x1 (multiReduction .add [1] S256 e 0x00000000#32 reduces_S256x8_S256 (.inl rfl) rfl)
    shapeCasts_S256_S256x1) broadcasts_S256x1_S256x8

theorem sumVec_apply (e : FVec Ideal S256x8 .f32) (r : Fin 256) (f : Fin 8) :
    sumVec e (ix2 r f) = ∑ g : Fin 8, e (ix2 r g) :=
  (column_apply _ shapeCasts_S256_S256x1 broadcasts_S256x1_S256x8 r f).trans
    (rowSum_apply e reduces_S256x8_S256 (.inl rfl) rfl r)

/-- The softmax weights. -/
def weightVec (s : FVec Ideal S256x8 .f32) : FVec Ideal S256x8 .f32 := divf (numVec s) (sumVec (numVec s))

theorem weightVec_apply (s : FVec Ideal S256x8 .f32) (r : Fin 256) (f : Fin 8) :
    weightVec s (ix2 r f) = Agg.weight (fun g => s (ix2 r g)) f := by
  show Ideal.div (numVec s (ix2 r f)) (sumVec (numVec s) (ix2 r f)) = _
  rw [sumVec_apply, numVec_apply]
  unfold Agg.weight
  exact congrArg (Ideal.div _) (Finset.sum_congr rfl fun g _ => numVec_apply s r g)

/-- The gate: the weights against the factor matrix. -/
def gateVec (p : FVec Ideal S256x8 .f32) (W : FVec Ideal S8x128 .f32) : FVec Ideal S256x128 .f32 :=
  matmul dot_S256x8_S8x128_S256x128_1_0_0_1_n_n none p W (constant (F := Ideal) S256x128 .f32 0x00000000#32)

theorem gateVec_apply (p : FVec Ideal S256x8 .f32) (W : FVec Ideal S8x128 .f32) (r : Fin 256) (c : Fin 128) :
    gateVec p W (ix2 r c) = ∑ f : Fin 8, p (ix2 r f) * W (ix2 f c) :=
  dotGate_apply p W r c

/-! ## The three stored values -/

/-- The partial product at (r, c). -/
theorem part_apply (E : Vec Ideal S8192x128 .f32) (I : Vec Ideal S256x8192 .f32) (r : Fin 256) (c : Fin 128) :
    k0_pay1 (F := Ideal) E I (ix2 r c) = ∑ k : Fin 8192, I (ix2 r k) * E (ix2 k c) :=
  dotPart_apply (truncf .bf16 I bitsLt_bf16_f32) (truncf .bf16 E bitsLt_bf16_f32) r c

/-- The accumulation at (r, c). -/
theorem acc_apply (E : Vec Ideal S8192x128 .f32) (I : Vec Ideal S256x8192 .f32) (X : Vec Ideal S256x128 .f32) (r : Fin 256) (c : Fin 128) :
    k0_pay2 (F := Ideal) E I X (ix2 r c) = X (ix2 r c) + ∑ k : Fin 8192, I (ix2 r k) * E (ix2 k c) := by
  show (shapeCast S256x128 X shapeCasts_S256x128_S256x128) (ix2 r c) + k0_pay1 (F := Ideal) E I (ix2 r c) = _
  rw [shapeCast_self, part_apply]

/-- The gated block is the composition of the stages. -/
theorem gated_eq (U : Vec Ideal S256x128 .f32) (L W : Vec Ideal S8x128 .f32) (X : Vec Ideal S256x128 .f32) :
    k0_pay3 (F := Ideal) U L W X
      = mulf (shapeCast S256x128 X shapeCasts_S256x128_S256x128)
          (addf (broadcast S256x128 (Scalar.ofBits (F := Ideal) .f32 0x3F800000#32)) (gateVec (weightVec (scoreVec U L)) W)) := rfl

/-- The gated block at (r, c): what the block held times one plus the gate of the row's scores against column `c`. -/
theorem gated_apply (U : Vec Ideal S256x128 .f32) (L W : Vec Ideal S8x128 .f32) (X : Vec Ideal S256x128 .f32) (r : Fin 256) (c : Fin 128) :
    k0_pay3 (F := Ideal) U L W X (ix2 r c)
      = X (ix2 r c) * (Agg.one + Agg.gate (fun f => ∑ d : Fin 128, U (ix2 r d) * L (ix2 f d)) (fun f => W (ix2 f c))) := by
  rw [gated_eq]
  show (shapeCast S256x128 X shapeCasts_S256x128_S256x128) (ix2 r c) * (Agg.one + gateVec (weightVec (scoreVec U L)) W (ix2 r c)) = _
  rw [shapeCast_self, gateVec_apply]
  unfold Agg.gate
  refine congrArg (fun t => X (ix2 r c) * (Agg.one + t)) (Finset.sum_congr rfl fun f _ => ?_)
  rw [weightVec_apply]
  exact congrArg (fun s => Agg.weight s f * W (ix2 f c)) (funext fun g => scoreVec_apply U L r g)

end Cert.KernelIdeal.Pay

end
-- ==== Proof.IdealBlock.lean ====
/-
  From the blocks to the result array.

  What each case leaves in the output block, as the body's stored values of the input blocks: slice 0 leaves the partial
  product over rows [0, 8192) of the entity array; slice 1 leaves what it found plus the partial product over rows
  [8192, 16384), times one plus the gate. The position after a slice-1 point is reached from a slice-0 point, so what the
  block holds when it is written back is a closed form of the input blocks at the two points of one user block.

  The windows read the arrays at: user rows 256·(t/2) + r (user embedding, interaction matrix, result), entity columns
  8192·(t%2) + k of the interaction matrix, and the factor embedding, the factor matrix and the entity array whole; the
  body slices the entity array at rows 8192·(t%2) + k. So the block written back after point `t` (odd) is block `t/2` of
  `Agg.resultArr` of the argument arrays — given that the interaction matrix and the entity array hold reals, which
  the law that joins the two forms needs —, the sixteen written blocks tile the result array, and the array ends
  holding `Agg.resultArr`.
-/
import proofs.«121113_g16647293239300_cont_7to1_181_22_alg».proof.Proof.IdealFrame
import proofs.«121113_g16647293239300_cont_7to1_181_22_alg».proof.Proof.IdealPay
import Idealize.ShloMosaic.Lib.Pipeline.Value

set_option maxRecDepth 16384

noncomputable section

namespace Cert.KernelIdeal.Block

open Cert.KernelIdeal Cert.KernelIdeal.Gen Cert.KernelIdeal.Body
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

/-! ## What each case leaves, as stored values of the input blocks (at any instance) -/

section AnyInstance

variable {F : FTy → Type} [FloatOps F]
variable (m : (ℓ : Loc nD τ sig) → Buf (Elt F) ℓ)

theorem hz : (![0, 0] : Fin 2 → Nat) = fun _ => 0 := funext fun a => by fin_cases a <;> rfl

/-- The rows of the entity array the body loads at coordinate `i`. -/
def entRows (i : grid0.Coords) (E : Vec F S16384x128 .f32) : Vec F S8192x128 .f32 :=
  View.ld E (Rect.unit (s := S16384x128) (k0_off1 i) S8192x128.size (k0_off1_inb i))

theorem leftFirst_eq (c : Dev nD) (i : grid0.Coords) (a0 : Memref sig .tc .vmem S256x128 .f32) (h0 : a0.IsWhole) (a1 : Memref sig .tc .vmem S8x128 .f32) (h1 : a1.IsWhole) (a2 : Memref sig .tc .vmem S8x128 .f32) (h2 : a2.IsWhole) (a3 : Memref sig .tc .vmem S256x8192 .f32) (h3 : a3.IsWhole) (a4 : Memref sig .tc .vmem S16384x128 .f32) (h4 : a4.IsWhole) (a5 : Memref sig .tc .vmem S256x128 .f32) (h5 : a5.IsWhole) (hc0 : onFirst i) (hc1 : ¬onLater i) (hc2 : ¬onLast i)
    (x0 : Vec F S256x128 .f32) (x1 : Vec F S8x128 .f32) (x2 : Vec F S8x128 .f32) (x3 : Vec F S256x8192 .f32) (x4 : Vec F S16384x128 .f32) :
    leftFirst c i a0 h0 a1 h1 a2 h2 a3 h3 a4 h4 a5 h5 hc0 hc1 hc2 x0 x1 x2 x3 x4 = k0_pay1 (entRows i x4) x3 := by
  unfold leftFirst
  rw [View.read_writes_eq_canon _ _ _ (coverFirst c i a0 h0 a1 h1 a2 h2 a3 h3 a4 h4 a5 h5 hc0 hc1 hc2 x0 x1 x2 x3 x4)]
  unfold runFirst
  dsimp only
  rw [View.canon_unit_zero hz]
  simp only [View.readAt_eq_ld, h3.read_unread, h4.read_unread, View.ld_unit_zero (S := S256x8192) hz]
  rfl

theorem leftLast_eq (c : Dev nD) (i : grid0.Coords) (a0 : Memref sig .tc .vmem S256x128 .f32) (h0 : a0.IsWhole) (a1 : Memref sig .tc .vmem S8x128 .f32) (h1 : a1.IsWhole) (a2 : Memref sig .tc .vmem S8x128 .f32) (h2 : a2.IsWhole) (a3 : Memref sig .tc .vmem S256x8192 .f32) (h3 : a3.IsWhole) (a4 : Memref sig .tc .vmem S16384x128 .f32) (h4 : a4.IsWhole) (a5 : Memref sig .tc .vmem S256x128 .f32) (h5 : a5.IsWhole) (hc0 : ¬onFirst i) (hc1 : onLater i) (hc2 : onLast i)
    (x0 : Vec F S256x128 .f32) (x1 : Vec F S8x128 .f32) (x2 : Vec F S8x128 .f32) (x3 : Vec F S256x8192 .f32) (x4 : Vec F S16384x128 .f32) (xo : Vec F S256x128 .f32) :
    leftLast c i a0 h0 a1 h1 a2 h2 a3 h3 a4 h4 a5 h5 hc0 hc1 hc2 x0 x1 x2 x3 x4 xo = k0_pay3 x0 x1 x2 (k0_pay2 (entRows i x4) x3 xo) := by
  unfold leftLast
  rw [View.read_writes_eq_canon _ _ _ (coverLast c i a0 h0 a1 h1 a2 h2 a3 h3 a4 h4 a5 h5 hc0 hc1 hc2 x0 x1 x2 x3 x4 xo)]
  unfold runLast
  dsimp only
  sl_unfold_words
  rw [View.canon_cons_unit_zero (S := S256x128) hz]
  rw [View.readCov_unit_zero (S := S256x128) _ hz]
  simp only [View.readAt_eq_ld, h0.read_unread, h1.read_unread, h2.read_unread, h3.read_unread, h4.read_unread, h5.read_unread,
    View.ld_unit_zero (S := S256x128) hz, View.ld_unit_zero (S := S8x128) hz, View.ld_unit_zero (S := S256x8192) hz]
  rfl

/-- The partial product of point `t`: its interaction block against the entity rows of its slice. -/
def partAt (c : Dev nD) (t : Fin cfg0.N) : Vec F S256x128 .f32 :=
  k0_pay1 (entRows (grid0.coords t) (iblk m c 4 t)) (iblk m c 3 t)

/-- After a slice-0 point the block holds that point's partial product. -/
theorem accAt_first (c : Dev nD) (t : Fin cfg0.N) (h : t.val % 2 = 0) : accAt m c t.val t.isLt = partAt m c t := by
  rw [accAt_even m c t h]
  unfold firstAt partAt
  exact leftFirst_eq c (grid0.coords t) (ms0 t) (hs0 t) (ms1 t) (hs1 t) (ms2 t) (hs2 t) (ms3 t) (hs3 t) (ms4 t) (hs4 t) (ms5 t) (hs5 t) _ _ _ (iblk m c 0 t) (iblk m c 1 t) (iblk m c 2 t) (iblk m c 3 t) (iblk m c 4 t)

/-- After a slice-1 point the block holds the two partial products of its user block summed, times one plus the gate. -/
theorem accAt_last (c : Dev nD) (t : Fin cfg0.N) (h : ¬t.val % 2 = 0) :
    accAt m c t.val t.isLt
      = k0_pay3 (iblk m c 0 t) (iblk m c 1 t) (iblk m c 2 t)
          (k0_pay2 (entRows (grid0.coords t) (iblk m c 4 t)) (iblk m c 3 t) (partAt m c ⟨t.val - 1, Nat.lt_of_le_of_lt (Nat.sub_le _ _) t.isLt⟩)) := by
  rw [accAt_odd m c t h]
  unfold lastAt
  rw [leftLast_eq c (grid0.coords t) (ms0 t) (hs0 t) (ms1 t) (hs1 t) (ms2 t) (hs2 t) (ms3 t) (hs3 t) (ms4 t) (hs4 t) (ms5 t) (hs5 t) _ _ _ (iblk m c 0 t) (iblk m c 1 t) (iblk m c 2 t) (iblk m c 3 t) (iblk m c 4 t)]
  have hp : (⟨t.val - 1, Nat.lt_of_le_of_lt (Nat.sub_le _ _) t.isLt⟩ : Fin cfg0.N).val % 2 = 0 := by
    have hN : t.val < 32 := lt_of_lt_of_eq t.isLt (show cfg0.N = 32 from N_0)
    show (t.val - 1) % 2 = 0
    omega
  rw [show accAt m c (t.val - 1) (Nat.lt_of_le_of_lt (Nat.sub_le _ _) t.isLt) = partAt m c ⟨t.val - 1, Nat.lt_of_le_of_lt (Nat.sub_le _ _) t.isLt⟩ from
    accAt_first m c ⟨t.val - 1, Nat.lt_of_le_of_lt (Nat.sub_le _ _) t.isLt⟩ hp]

end AnyInstance

/-! ## At the extended reals: the written block is a block of the result -/

section AtIdeal

variable (m : (ℓ : Loc nD τ sig) → Buf (Elt Ideal) ℓ) (ρ : Dev nD → PrngReg)

/-- The printed index maps and the body's slice offset, decided over the grid: the user block is `t / 2`, the slice of
    the entity axis `t % 2`, and the factor embedding, the factor matrix and the entity array are staged whole. -/
theorem idx_facts : ∀ t : Fin cfg0.N,
    win0_0.index t (0 : Fin 2) = t.val / 2 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val / 2 ∧ win0_3.index t (1 : Fin 2) = t.val % 2
    ∧ win0_4.index t (0 : Fin 2) = 0 ∧ win0_4.index t (1 : Fin 2) = 0
    ∧ win0_5.index t (0 : Fin 2) = t.val / 2 ∧ win0_5.index t (1 : Fin 2) = 0
    ∧ k0_off1 (grid0.coords t) (0 : Fin 2) = 8192 * (t.val % 2) ∧ k0_off1 (grid0.coords t) (1 : Fin 2) = 0 :=
  (by decide +kernel : ∀ t : Fin grid0.N, _)

/-- The user-embedding block of point `t` at (r, d) is the array at user 256·(t/2) + r. -/
theorem user_blk (c : Dev nD) (t : Fin cfg0.N) (r : Fin 256) (d : Fin 128) (u : Fin 4096) (hu : u.val = 256 * (t.val / 2) + r.val) :
    (iblk m c 0 t : Vec Ideal S256x128 .f32) (ix2 r d) = V m c main_arg1 (ix2 u d) := by
  obtain ⟨e00, e01, e10, e11, e20, e21, e30, e31, e40, e41, e50, e51, eo0, eo1⟩ := idx_facts t
  unfold iblk
  rw [View.read_apply]
  show V m c main_arg1 (((cfg0.win 0).blk t).view.emb (ix2 r d)) = V m c main_arg1 (ix2 u d)
  refine congrArg _ (funext fun a => Fin.ext ?_)
  match a with
  | ⟨0, _⟩ => show win0_0.index t (0 : Fin 2) * 256 + 1 * r.val = u.val; omega
  | ⟨1, _⟩ => show win0_0.index t (1 : Fin 2) * 128 + 1 * d.val = d.val; omega

/-- The factor-embedding block is the array. -/
theorem latent_blk (c : Dev nD) (t : Fin cfg0.N) (f : Fin 8) (d : Fin 128) :
    (iblk m c 1 t : Vec Ideal S8x128 .f32) (ix2 f d) = V m c main_arg2 (ix2 f d) := by
  obtain ⟨e00, e01, e10, e11, e20, e21, e30, e31, e40, e41, e50, e51, eo0, eo1⟩ := idx_facts t
  unfold iblk
  rw [View.read_apply]
  show V m c main_arg2 (((cfg0.win 1).blk t).view.emb (ix2 f d)) = V m c main_arg2 (ix2 f d)
  refine congrArg _ (funext fun a => Fin.ext ?_)
  match a with
  | ⟨0, _⟩ => show win0_1.index t (0 : Fin 2) * 8 + 1 * f.val = f.val; omega
  | ⟨1, _⟩ => show win0_1.index t (1 : Fin 2) * 128 + 1 * d.val = d.val; omega

/-- The factor-matrix block is the array. -/
theorem factor_blk (c : Dev nD) (t : Fin cfg0.N) (f : Fin 8) (d : Fin 128) :
    (iblk m c 2 t : Vec Ideal S8x128 .f32) (ix2 f d) = V m c main_arg3 (ix2 f d) := by
  obtain ⟨e00, e01, e10, e11, e20, e21, e30, e31, e40, e41, e50, e51, eo0, eo1⟩ := idx_facts t
  unfold iblk
  rw [View.read_apply]
  show V m c main_arg3 (((cfg0.win 2).blk t).view.emb (ix2 f d)) = V m c main_arg3 (ix2 f d)
  refine congrArg _ (funext fun a => Fin.ext ?_)
  match a with
  | ⟨0, _⟩ => show win0_2.index t (0 : Fin 2) * 8 + 1 * f.val = f.val; omega
  | ⟨1, _⟩ => show win0_2.index t (1 : Fin 2) * 128 + 1 * d.val = d.val; omega

/-- The interaction block of point `t` at (r, k) is the array at user 256·(t/2) + r, entity 8192·(t%2) + k. -/
theorem inter_blk (c : Dev nD) (t : Fin cfg0.N) (r : Fin 256) (k : Fin 8192) (u : Fin 4096) (e : Fin 16384)
    (hu : u.val = 256 * (t.val / 2) + r.val) (he : e.val = 8192 * (t.val % 2) + k.val) :
    (iblk m c 3 t : Vec Ideal S256x8192 .f32) (ix2 r k) = V m c main_arg4 (ix2 u e) := by
  obtain ⟨e00, e01, e10, e11, e20, e21, e30, e31, e40, e41, e50, e51, eo0, eo1⟩ := idx_facts t
  unfold iblk
  rw [View.read_apply]
  show V m c main_arg4 (((cfg0.win 3).blk t).view.emb (ix2 r k)) = V m c main_arg4 (ix2 u e)
  refine congrArg _ (funext fun a => Fin.ext ?_)
  match a with
  | ⟨0, _⟩ => show win0_3.index t (0 : Fin 2) * 256 + 1 * r.val = u.val; omega
  | ⟨1, _⟩ => show win0_3.index t (1 : Fin 2) * 8192 + 1 * k.val = e.val; omega

/-- The entity rows the body loads at point `t`, at (k, c'), are the array at entity 8192·(t%2) + k. -/
theorem ent_rows (c : Dev nD) (t : Fin cfg0.N) (k : Fin 8192) (c' : Fin 128) (e : Fin 16384) (he : e.val = 8192 * (t.val % 2) + k.val) :
    entRows (grid0.coords t) (iblk m c 4 t : Vec Ideal S16384x128 .f32) (ix2 k c') = V m c main_arg0 (ix2 e c') := by
  obtain ⟨e00, e01, e10, e11, e20, e21, e30, e31, e40, e41, e50, e51, eo0, eo1⟩ := idx_facts t
  unfold entRows iblk
  show ((cfg0.win 4).blk t).view.read (Elt Ideal) (V m c main_arg0)
      ((Rect.unit (s := S16384x128) (k0_off1 (grid0.coords t)) S8192x128.size (k0_off1_inb (grid0.coords t))).idx (ix2 k c')) = _
  rw [View.read_apply]
  show V m c main_arg0 (((cfg0.win 4).blk t).view.emb
      ((Rect.unit (s := S16384x128) (k0_off1 (grid0.coords t)) S8192x128.size (k0_off1_inb (grid0.coords t))).idx (ix2 k c')))
    = V m c main_arg0 (ix2 e c')
  refine congrArg _ (funext fun a => Fin.ext ?_)
  match a with
  | ⟨0, _⟩ => show win0_4.index t (0 : Fin 2) * 16384 + 1 * (k0_off1 (grid0.coords t) (0 : Fin 2) + 1 * k.val) = e.val; omega
  | ⟨1, _⟩ => show win0_4.index t (1 : Fin 2) * 128 + 1 * (k0_off1 (grid0.coords t) (1 : Fin 2) + 1 * c'.val) = c'.val; omega

/-- The arguments as the region finds them hold reals where the law needs them. -/
structure RealInputs (c : Dev nD) : Prop where
  inter : ∀ j : S4096x16384.Idx, ∃ r : ℝ, (V m c main_arg4 j : EReal) = (r : EReal)
  entity : ∀ j : S16384x128.Idx, ∃ r : ℝ, (V m c main_arg0 j : EReal) = (r : EReal)

/-- The result array of the arguments as the region finds them. -/
abbrev target (c : Dev nD) : S4096x128.Idx → EReal :=
  Agg.resultArr (V m c main_arg0) (V m c main_arg1) (V m c main_arg2) (V m c main_arg3) (V m c main_arg4)

/-- What the block holds after a slice-1 point `t`, at (r, c'): the result for user 256·(t/2) + r on channel c'. -/
theorem written_apply (c : Dev nD) (hR : RealInputs m c) (t : Fin cfg0.N) (h : ¬t.val % 2 = 0) (r : Fin 256) (c' : Fin 128)
    (u : Fin 4096) (hu : u.val = 256 * (t.val / 2) + r.val) :
    accAt m c t.val t.isLt (ix2 r c') = target m c (ix2 u c') := by
  have hN : t.val < 32 := lt_of_lt_of_eq t.isLt (show cfg0.N = 32 from N_0)
  have hu' : u.val = 256 * ((⟨t.val - 1, Nat.lt_of_le_of_lt (Nat.sub_le _ _) t.isLt⟩ : Fin cfg0.N).val / 2) + r.val := by
    show u.val = 256 * ((t.val - 1) / 2) + r.val
    omega
  rw [accAt_last m c t h]
  refine (Pay.gated_apply (iblk m c 0 t) (iblk m c 1 t) (iblk m c 2 t)
    (k0_pay2 (entRows (grid0.coords t) (iblk m c 4 t)) (iblk m c 3 t) (partAt m c ⟨t.val - 1, Nat.lt_of_le_of_lt (Nat.sub_le _ _) t.isLt⟩)) r c').trans ?_
  rw [Pay.acc_apply (entRows (grid0.coords t) (iblk m c 4 t)) (iblk m c 3 t) (partAt m c ⟨t.val - 1, Nat.lt_of_le_of_lt (Nat.sub_le _ _) t.isLt⟩) r c']
  unfold partAt
  rw [Pay.part_apply (entRows (grid0.coords ⟨t.val - 1, Nat.lt_of_le_of_lt (Nat.sub_le _ _) t.isLt⟩) (iblk m c 4 ⟨t.val - 1, Nat.lt_of_le_of_lt (Nat.sub_le _ _) t.isLt⟩)) (iblk m c 3 ⟨t.val - 1, Nat.lt_of_le_of_lt (Nat.sub_le _ _) t.isLt⟩) r c']
  show _ = Agg.result (fun a b => V m c main_arg0 (ix2 a b)) (fun a b => V m c main_arg1 (ix2 a b))
    (fun a b => V m c main_arg2 (ix2 a b)) (fun a b => V m c main_arg3 (ix2 a b)) (fun a b => V m c main_arg4 (ix2 a b)) u c'
  refine Eq.trans ?_ (Agg.fused_eq_result (fun a b => V m c main_arg0 (ix2 a b)) (fun a b => V m c main_arg1 (ix2 a b))
    (fun a b => V m c main_arg2 (ix2 a b)) (fun a b => V m c main_arg3 (ix2 a b)) (fun a b => V m c main_arg4 (ix2 a b))
    (fun a b => hR.inter _) (fun a b => hR.entity _) u c')
  unfold Agg.fused
  refine congrArg₂ (· * ·) (congrArg₂ (· + ·) ?_ ?_) (congrArg (Agg.one + ·) ?_)
  · refine Finset.sum_congr rfl fun k _ => congrArg₂ (· * ·) ?_ ?_
    · exact inter_blk m c ⟨t.val - 1, Nat.lt_of_le_of_lt (Nat.sub_le _ _) t.isLt⟩ r k u (Fin.castAdd 8192 k) hu' (by show k.val = 8192 * ((t.val - 1) % 2) + k.val; omega)
    · exact ent_rows m c ⟨t.val - 1, Nat.lt_of_le_of_lt (Nat.sub_le _ _) t.isLt⟩ k c' (Fin.castAdd 8192 k) (by show k.val = 8192 * ((t.val - 1) % 2) + k.val; omega)
  · refine Finset.sum_congr rfl fun k _ => congrArg₂ (· * ·) ?_ ?_
    · exact inter_blk m c t r k u (Fin.natAdd 8192 k) hu (by show 8192 + k.val = 8192 * (t.val % 2) + k.val; omega)
    · exact ent_rows m c t k c' (Fin.natAdd 8192 k) (by show 8192 + k.val = 8192 * (t.val % 2) + k.val; omega)
  · refine congrArg₂ Agg.gate (funext fun f => Finset.sum_congr rfl fun d _ => congrArg₂ (· * ·) ?_ ?_) (funext fun f => ?_)
    · exact user_blk m c t r d u hu
    · exact latent_blk m c t f d
    · exact factor_blk m c t f c'

/-- WHAT A WRITE-BACK WRITES: the block written back after point `t` is block `t / 2` of the result array. -/
theorem flushed_eq (c : Dev nD) (hR : RealInputs m c) (t : Fin cfg0.N) (hf : (cfg0.win 5).flush t = true) :
    (dats m 0 c).flushed 5 t = ((cfg0.win 5).blk t).view.read (Elt Ideal) (target m c) := by
  have hodd : ¬t.val % 2 = 0 := by have := (flush0_5 t).mp hf; omega
  have hN : t.val < 32 := lt_of_lt_of_eq t.isLt (show cfg0.N = 32 from N_0)
  obtain ⟨e00, e01, e10, e11, e20, e21, e30, e31, e40, e41, e50, e51, eo0, eo1⟩ := idx_facts t
  show (cfg0.win 5).cut (grid0.coords t) ((dats m 0 c).after 5 t) = _
  rw [after_out]
  have key : ∀ (r : Fin 256) (c' : Fin 128),
      accAt m c t.val t.isLt (ix2 r c') = target m c (((cfg0.win 5).blk t).view.emb (ix2 r c')) := fun r c' => by
    have hu : 256 * (t.val / 2) + r.val < 4096 := by omega
    rw [written_apply m c hR t hodd r c' ⟨256 * (t.val / 2) + r.val, hu⟩ rfl]
    refine congrArg (target m c) (funext fun a => Fin.ext ?_)
    match a with
    | ⟨0, _⟩ => show 256 * (t.val / 2) + r.val = win0_5.index t (0 : Fin 2) * 256 + 1 * r.val; omega
    | ⟨1, _⟩ => show c'.val = win0_5.index t (1 : Fin 2) * 128 + 1 * c'.val; omega
  funext j
  have hj : (j : S256x128.Idx) = ix2 (j 0) (j 1) := eq_ix2 j
  rw [hj]
  exact key (j 0) (j 1)

/-- An index of the result array is in point `t`'s block iff each coordinate is in the block's range on its axis. -/
theorem mem_blk (t : Fin cfg0.N) (i : S4096x128.Idx) :
    i ∈ ((cfg0.win 5).blk t).view.set ↔ ∀ a : Fin 2, win0_5.index t a * S256x128.size a ≤ (i a).val ∧ (i a).val < win0_5.index t a * S256x128.size a + S256x128.size a := by
  show i ∈ ((View.whole main_v0).slice (win0_5.rect t)).set ↔ _
  rw [View.set_slice_whole, Rect.mem_set_unit]
  exact Iff.rfl

/-- THE COVER: user `u` is in the block written back after point 2·(u / 256) + 1. -/
theorem covered (i : S4096x128.Idx) :
    ∃ t : Fin cfg0.N, (cfg0.win 5).flush t = true ∧ i ∈ ((cfg0.win 5).blk t).view.set := by
  have hi0 : (i 0).val < 4096 := (i 0).isLt
  have hi1 : (i 1).val < 128 := (i 1).isLt
  have hN : cfg0.N = 32 := N_0
  have ht : 2 * ((i 0).val / 256) + 1 < cfg0.N := by rw [hN]; omega
  obtain ⟨e00, e01, e10, e11, e20, e21, e30, e31, e40, e41, e50, e51, eo0, eo1⟩ := idx_facts ⟨2 * ((i 0).val / 256) + 1, ht⟩
  have hv : (⟨2 * ((i 0).val / 256) + 1, ht⟩ : Fin cfg0.N).val = 2 * ((i 0).val / 256) + 1 := rfl
  refine ⟨⟨2 * ((i 0).val / 256) + 1, ht⟩, (flush0_5 _).mpr (by rw [hv]; omega), ?_⟩
  rw [mem_blk]
  intro a
  match a with
  | ⟨0, _⟩ =>
    show win0_5.index ⟨2 * ((i 0).val / 256) + 1, ht⟩ (0 : Fin 2) * 256 ≤ (i 0).val
      ∧ (i 0).val < win0_5.index ⟨2 * ((i 0).val / 256) + 1, ht⟩ (0 : Fin 2) * 256 + 256
    rw [e50, hv]; omega
  | ⟨1, _⟩ =>
    show win0_5.index ⟨2 * ((i 0).val / 256) + 1, ht⟩ (1 : Fin 2) * 128 ≤ (i 1).val
      ∧ (i 1).val < win0_5.index ⟨2 * ((i 0).val / 256) + 1, ht⟩ (1 : Fin 2) * 128 + 128
    rw [e51]; omega

/-- THE RESULT ARRAY after the run is `Agg.resultArr` of the arguments. -/
theorem final (c : Dev nD) (hR : RealInputs m c) : (dats m 0 c).arrAt 5 cfg0.N = target m c :=
  (dats m 0 c).arrAt_eq_of_cover 5 (target m c) (fun t hf => flushed_eq m c hR t hf) covered

/-- The run, read: the result array at `Agg.resultArr` of the arguments, the arguments unchanged. -/
theorem run (hR : ∀ c, RealInputs m c) :
    θ_run defs (onTc (τ := τ) (main (F := Ideal))) ⟨m, fun _ => 0, ρ⟩ fun r => ∀ c : Dev nD,
      r.2.mem ((c.tc : Thread nD τ).loc main_v0) = target m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c => ⟨((h c).1 5).trans (final m c (hR c)),
      ((h c).1 4).trans (((dats m 0 c).arrAt_in 4 rfl _).trans (A_eq m c 4)),
      ((h c).1 0).trans (((dats m 0 c).arrAt_in 0 rfl _).trans (A_eq m c 0)),
      ((h c).1 1).trans (((dats m 0 c).arrAt_in 1 rfl _).trans (A_eq m c 1)),
      ((h c).1 2).trans (((dats m 0 c).arrAt_in 2 rfl _).trans (A_eq m c 2)),
      ((h c).1 3).trans (((dats m 0 c).arrAt_in 3 rfl _).trans (A_eq m c 3))⟩)
    (run_main m ρ)

end AtIdeal

end Cert.KernelIdeal.Block

end
-- ==== Proof.RefRead.lean ====
/-
  The reference's result, read index by index, is `Agg.resultArr` of its five arguments.

  The generated read-at-an-index lemmas give each operation's element from its operands' elements; composed from the
  last operation back they give, at user `u` and channel `c`:  a · g' + a  with `a` the sum over the 16384 entities of
  I[u,k] · E[k,c] and `g'` the sum over the eight factors of W[f,c] times the softmax weight of factor `f`. The one
  operation those lemmas leave unread is the row maximum of the scores, a fold of `max` from −∞ over the eight
  factors; the two sums that start from the zero word lose it (0 + x = x).
-/
import proofs.«121113_g16647293239300_cont_7to1_181_22_alg».proof.Proof.Spec
import proofs.«121113_g16647293239300_cont_7to1_181_22_alg».proof.Proof.Gen.ReferenceIdeal.Read
import Idealize.ShloMosaic.Lib.ValueIdx
import Idealize.ShloMosaic.PureOps.Ideal.Laws

set_option maxRecDepth 16384

noncomputable section

namespace Cert.ReferenceIdeal.RefValue

open Cert.ReferenceIdeal Cert.ReferenceIdeal.Gen Cert.ReferenceIdeal.Read
open Idealize.ShloMosaic Idealize.ShloMosaic.ValueIdx

/-- The eight scores of user `u`. -/
abbrev scores (x1 : S4096x128.Idx → EReal) (x2 : S8x128.Idx → EReal) (u : Fin 4096) : Fin 8 → EReal :=
  fun f => ∑ d : Fin 128, x1 (ix2 u d) * x2 (ix2 f d)

/-- The score of user `u` against factor `f`: the user's row against the factor's row. -/
theorem score_apply (x1 : S4096x128.Idx → EReal) (x2 : S8x128.Idx → EReal) (u : Fin 4096) (f : Fin 8) :
    val_main_v1 (F := Ideal) x1 x2 (ix2 u f) = scores x1 x2 u f := by
  refine (val_main_v1_apply x1 x2 (ix2 u f)).trans (Finset.sum_congr rfl fun d _ => ?_)
  rw [val_main_v0_apply]
  exact congrArg₂ (· * ·) (congrArg x1 (funext fun a => Fin.ext (by match a with | ⟨0, _⟩ => rfl | ⟨1, _⟩ => rfl))) (congrArg x2 (funext fun a => Fin.ext (by match a with | ⟨0, _⟩ => rfl | ⟨1, _⟩ => rfl)))

/-- A user index with the factor coordinate put back is (user, factor). -/
theorem lift_user (h : S4096x8.Reduces [1] S4096) (u : Fin 4096) (f : Fin (S4096x8.size 1)) :
    h.lift (ix1 u) f = ix2 u (⟨f.val, f.isLt⟩ : Fin 8) := by
  funext c; apply Fin.ext
  fin_cases c <;> rfl

/-- The row maximum, the one operation read by hand: the fold of `max` from −∞ over the eight scores. -/
theorem rowMax_apply (x1 : S4096x128.Idx → EReal) (x2 : S8x128.Idx → EReal) (u : Fin 4096) :
    val_main_v2 (F := Ideal) x1 x2 (ix1 u) = (Finset.univ : Finset (Fin 8)).fold max Agg.negInf (scores x1 x2 u) := by
  have hred : S4096x8.Reduces [1] S4096 := by decide
  have e := Host.reduce_eq_fold_single (FloatOps.maximumf (F := Ideal) (φ := .f32)) (val_main_v1 (F := Ideal) x1 x2)
    (val_main_cst (F := Ideal)) reducesTo_S4096x8_S4096_d1 hred h_S_ (ix1 u)
  have hf : (val_main_v1 (F := Ideal) x1 x2 ∘ hred.lift (ix1 u)) = scores x1 x2 u :=
    funext fun f => (congrArg (val_main_v1 (F := Ideal) x1 x2) (lift_user hred u f)).trans (score_apply x1 x2 u f)
  rw [hf] at e
  exact e

/-- The largest score of user `u`. -/
theorem top_apply (x1 : S4096x128.Idx → EReal) (x2 : S8x128.Idx → EReal) (u : Fin 4096) :
    val_main_v4 (F := Ideal) x1 x2 (ix1 u) = Agg.top (scores x1 x2 u) := by
  rw [val_main_v4_apply, rowMax_apply, val_main_v3_apply]
  rfl

/-- The numerator of factor `f` for user `u`. -/
theorem num_apply (x1 : S4096x128.Idx → EReal) (x2 : S8x128.Idx → EReal) (u : Fin 4096) (f : Fin 8) :
    val_main_v8 (F := Ideal) x1 x2 (ix2 u f) = Agg.num (scores x1 x2 u) f := by
  rw [val_main_v8_apply, val_main_v7_apply, val_main_v6_apply, val_main_v5_apply, score_apply]
  rw [show idx_main_v5 (idx_main_v6 (ix2 u f)) = ix1 u from (funext fun a => Fin.ext (by match a with | ⟨0, _⟩ => rfl)), top_apply]
  rfl

/-- The sum of the eight numerators of user `u`, broadcast back over the factors. -/
theorem den_apply (x1 : S4096x128.Idx → EReal) (x2 : S8x128.Idx → EReal) (u : Fin 4096) (f : Fin 8) :
    val_main_v11 (F := Ideal) x1 x2 (ix2 u f) = ∑ g : Fin 8, Agg.num (scores x1 x2 u) g := by
  rw [val_main_v11_apply, val_main_v10_apply]
  rw [show idx_main_v10 (idx_main_v11 (ix2 u f)) = ix1 u from (funext fun a => Fin.ext (by match a with | ⟨0, _⟩ => rfl)), val_main_v9_apply]
  rw [show val_main_cst_1 (F := Ideal) (Shape.Idx.first h_S_) = 0 from Ideal.ofBits_zero_f32, zero_add]
  exact Finset.sum_congr rfl fun g _ =>
    (congrArg (val_main_v8 (F := Ideal) x1 x2) (show idx_main_v9 (ix1 u) g = ix2 u g from (funext fun a => Fin.ext (by match a with | ⟨0, _⟩ => rfl | ⟨1, _⟩ => rfl)))).trans (num_apply x1 x2 u g)

/-- The softmax weight of factor `f` for user `u`. -/
theorem weight_apply (x1 : S4096x128.Idx → EReal) (x2 : S8x128.Idx → EReal) (u : Fin 4096) (f : Fin 8) :
    val_main_v12 (F := Ideal) x1 x2 (ix2 u f) = Agg.weight (scores x1 x2 u) f := by
  rw [val_main_v12_apply, num_apply, den_apply]
  rfl

/-- The gate of user `u` on channel `c`: the factor matrix's column against the weights. -/
theorem gate_apply (x1 : S4096x128.Idx → EReal) (x2 : S8x128.Idx → EReal) (x3 : S8x128.Idx → EReal) (u : Fin 4096) (c : Fin 128) :
    val_main_v18 (F := Ideal) x1 x2 x3 (ix2 u c) = ∑ f : Fin 8, x3 (ix2 f c) * Agg.weight (scores x1 x2 u) f := by
  rw [val_main_v18_apply]
  rw [show val_main_cst_2 (F := Ideal) (Shape.Idx.first h_S_) = 0 from Ideal.ofBits_zero_f32, zero_add]
  refine Finset.sum_congr rfl fun f _ => ?_
  rw [val_main_v17_apply, val_main_v15_apply, val_main_v16_apply, val_main_v13_apply]
  rw [show idx_main_v15 (idx_main_v18 (ix2 u c) f) = ix2 f c from (funext fun a => Fin.ext (by match a with | ⟨0, _⟩ => rfl | ⟨1, _⟩ => rfl)),
    show idx_main_v13 (idx_main_v16 (idx_main_v18 (ix2 u c) f)) = ix2 u f from (funext fun a => Fin.ext (by match a with | ⟨0, _⟩ => rfl | ⟨1, _⟩ => rfl)), weight_apply]
  rfl

/-- The aggregate of user `u` on channel `c`. -/
theorem agg_apply (x0 : S16384x128.Idx → EReal) (x4 : S4096x16384.Idx → EReal) (u : Fin 4096) (c : Fin 128) :
    val_main_v14 (F := Ideal) x0 x4 (ix2 u c) = ∑ k : Fin 16384, x4 (ix2 u k) * x0 (ix2 k c) := by
  refine (val_main_v14_apply x0 x4 (ix2 u c)).trans (Finset.sum_congr rfl fun k _ => ?_)
  exact congrArg₂ (· * ·) (congrArg x4 (funext fun a => Fin.ext (by match a with | ⟨0, _⟩ => rfl | ⟨1, _⟩ => rfl))) (congrArg x0 (funext fun a => Fin.ext (by match a with | ⟨0, _⟩ => rfl | ⟨1, _⟩ => rfl)))

/-- THE REFERENCE'S RESULT is `Agg.resultArr` of its arguments. -/
theorem result_eq (x0 : S16384x128.Idx → EReal) (x1 : S4096x128.Idx → EReal) (x2 : S8x128.Idx → EReal) (x3 : S8x128.Idx → EReal) (x4 : S4096x16384.Idx → EReal) :
    val_main_v20 (F := Ideal) x0 x1 x2 x3 x4 = Agg.resultArr x0 x1 x2 x3 x4 := by
  funext i
  obtain ⟨u, c, rfl⟩ : ∃ (u : Fin 4096) (c : Fin 128), i = ix2 u c := ⟨i 0, i 1, eq_ix2 i⟩
  rw [val_main_v20_apply, val_main_v19_apply, agg_apply, gate_apply, Agg.resultArr_apply]
  rfl

end Cert.ReferenceIdeal.RefValue

end
-- ==== Proof.Finite.lean ====
/-
  What the precondition says, read back. The predicate is the conjunction of five `all(|x| < +∞)`, one per argument
  array, each a reduction by `and` over the whole array of an elementwise comparison; that it is 1 gives the comparison
  at every element, and an extended real whose absolute value is below +∞ is a real number. Only the entity array (the
  first argument) and the interaction matrix (the last) are needed: the law that joins the two programs needs the
  aggregate to be a real, nothing of the gate.
-/
import proofs.«121113_g16647293239300_cont_7to1_181_22_alg».proof.Pre_finite_inputs
import proofs.«121113_g16647293239300_cont_7to1_181_22_alg».proof.Proof.Gen.Pre_finite_inputs
import Idealize.ShloMosaic.Lib.ReduceAll
import Idealize.ShloMosaic.Lib.ValueIdx
import Idealize.ShloMosaic.PureOps.Ideal

set_option maxRecDepth 16384

noncomputable section

namespace Cert.Pre_finite_inputs.Decode

open Cert.Pre_finite_inputs Cert.Pre_finite_inputs.Gen
open Idealize.ShloMosaic

instance : Subsingleton S_.Idx := ⟨fun a b => funext fun d => d.elim0⟩

/-- An extended real whose absolute value compares below the word +∞ is a real number. -/
theorem real_of_abs_lt (x : EReal)
    (h : Ideal.cmp .olt (max x (-x)) (Ideal.ofBits .f32 0x7F800000#32) = 1#1) : ∃ r : ℝ, x = (r : EReal) := by
  have hinf : Ideal.ofBits .f32 0x7F800000#32 = (⊤ : EReal) := by simp [Ideal.ofBits, Ideal.ieee]
  rw [hinf] at h
  induction x using EReal.rec with
  | bot => simp [Ideal.cmp] at h
  | coe r => exact ⟨r, rfl⟩
  | top => simp [Ideal.cmp] at h

/-- Under the precondition the first and the last argument hold reals everywhere. -/
theorem real_of_fn (a0 : FVec Ideal S16384x128 .f32) (a1 : FVec Ideal S4096x128 .f32) (a2 a3 : FVec Ideal S8x128 .f32)
    (a4 : FVec Ideal S4096x16384 .f32) (h : fn (F := Ideal) a0 a1 a2 a3 a4 = fun _ => 1#1) :
    (∀ j : S16384x128.Idx, ∃ r : ℝ, (a0 j : EReal) = (r : EReal)) ∧ (∀ j : S4096x16384.Idx, ∃ r : ℝ, (a4 j : EReal) = (r : EReal)) := by
  have h0 := congrFun h ValueIdx.ix0
  dsimp only [fn, fn_part1] at h0
  obtain ⟨h18, h22⟩ := IntOp.andi_eq_one.1 h0
  obtain ⟨h13, h17⟩ := IntOp.andi_eq_one.1 h18
  obtain ⟨h8, h12⟩ := IntOp.andi_eq_one.1 h13
  obtain ⟨h3, h7⟩ := IntOp.andi_eq_one.1 h8
  exact ⟨fun j => real_of_abs_lt (a0 j) (Host.reduce_andi_all _ _ _ _ _ h3 j),
    fun j => real_of_abs_lt (a4 j) (Host.reduce_andi_all _ _ _ _ _ h22 j)⟩

end Cert.Pre_finite_inputs.Decode

end
-- ==== Proof.lean ====
/-
  A fused aggregation kernel against its plain reference, over the extended reals.

  Both programs compute, for each of 4096 users `u` and 128 channels `c`,

      a · (1 + g),   a = Σₖ I[u,k] · E[k,c] over 16384 entities,   g = Σ_f softmax(U[u,·] · L[f,·])_f · W[f,c] over 8 factors.

  The kernel walks a grid of 16 user blocks by 2 halves of the entity axis: on the first half it stores the partial
  aggregate into its output block, on the second it adds the other partial aggregate and multiplies the block by
  1 + g; the block is written back after the second half. The reference computes a · g' + a with the factors of g'
  in the other order.

  * The two kernel programs run, terminate and leave their arguments unchanged: the body is run once per case of its
    conditionals (first half / second half), the output block's contents followed from the first half to the second
    (Proof/IdealCases, IdealRunFirst, IdealRunLast, IdealFrame; the same text for the word-level program, Proof/Bits*).
  * The reference runs: its generated run, the result dropped.
  * The idealized kernel is the kernel's own text read over the extended reals: nothing was rewritten.
  * Equal results: the block written back for user block `b` is block `b` of `Agg.resultArr` of the arguments
    (Proof/IdealPay: the stored values at an index; Proof/IdealBlock: the blocks, the cover, the array), the reference's
    result is `Agg.resultArr` of the arguments (Proof/RefRead), and the one law between the two forms,
    r · (1 + g) = r · g + r for a REAL aggregate r and any extended real g (Proof/Spec), is where the precondition is
    used: the entity array and the interaction matrix hold reals (Proof/Finite), so every aggregate is a real.
-/
import proofs.«121113_g16647293239300_cont_7to1_181_22_alg».proof.Defs
import proofs.«121113_g16647293239300_cont_7to1_181_22_alg».proof.Proof.BitsFrame
import proofs.«121113_g16647293239300_cont_7to1_181_22_alg».proof.Proof.IdealBlock
import proofs.«121113_g16647293239300_cont_7to1_181_22_alg».proof.Proof.RefRead
import proofs.«121113_g16647293239300_cont_7to1_181_22_alg».proof.Proof.Finite
import proofs.«121113_g16647293239300_cont_7to1_181_22_alg».proof.Proof.Gen.Kernel
import proofs.«121113_g16647293239300_cont_7to1_181_22_alg».proof.Proof.Gen.KernelIdeal
import proofs.«121113_g16647293239300_cont_7to1_181_22_alg».proof.Proof.Gen.ReferenceIdeal
import proofs.«121113_g16647293239300_cont_7to1_181_22_alg».proof.Proof.Gen.ReferenceIdeal.Run
import proofs.«121113_g16647293239300_cont_7to1_181_22_alg».proof.Proof.Gen.Pre_finite_inputs
import Idealize.ShloMosaic.Adequacy
import Idealize.ShloMosaic.Init

noncomputable section

namespace Cert.Proof

open Idealize.ShloMosaic Idealize.ShloMosaic.TcCoe Idealize.SL.Sem

/-- The word-level kernel runs and leaves its arguments unchanged. -/
theorem frame_kernel : Cert.frame_Kernel := fun m ρ _ =>
  Cert.Kernel.Gen.frame_of m ρ (Cert.Kernel.Body.dats m) (Cert.Kernel.Body.A_eq m) (Cert.Kernel.Body.run_main m ρ)

/-- So does the kernel read over the extended reals. -/
theorem frame_ideal : Cert.frame_KernelIdeal := fun m ρ _ =>
  Cert.KernelIdeal.Gen.frame_of m ρ (Cert.KernelIdeal.Body.dats m) (Cert.KernelIdeal.Body.A_eq m) (Cert.KernelIdeal.Body.run_main m ρ)

/-- The reference runs: its run, the result dropped. -/
theorem frame_reference : Cert.frame_ReferenceIdeal := fun m ρ _ =>
  (θ_run Cert.ReferenceIdeal.defs _ _).mono (fun _ h c => (h c).2) (Cert.ReferenceIdeal.Value.run (F := Ideal) m ρ)

/-- From memories agreeing on the arguments both programs end with `Agg.resultArr` of the arguments in their result
    arrays: the kernel by its blocks, the reference by its operations read back; the precondition gives that the
    aggregates are reals. -/
theorem algebraic : Cert.algebraic_KernelIdeal_ReferenceIdeal := by
  intro m ρ m' ρ' hpre hagree
  have hR : ∀ c, Cert.KernelIdeal.Block.RealInputs m c := fun c =>
    ⟨(Cert.Pre_finite_inputs.Decode.real_of_fn _ _ _ _ _ (hpre c)).2, (Cert.Pre_finite_inputs.Decode.real_of_fn _ _ _ _ _ (hpre c)).1⟩
  refine ⟨fun c => Cert.KernelIdeal.Block.target m c, Cert.KernelIdeal.Block.run m ρ hR, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v20_eq, Cert.ReferenceIdeal.RefValue.result_eq,
    (hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_ideal, frame_reference, trivial, algebraic⟩

end Cert.Proof

end
